-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S3072x1024 .f32) (main_arg2 : FVec F S3072 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S1x1024 : Shape := ⟨2, ![1, 1024]⟩
abbrev S8x1024x3072 : Shape := ⟨3, ![8, 1024, 3072]⟩
abbrev S1x1024x128 : Shape := ⟨3, ![1, 1024, 128]⟩
abbrev S1024x128 : Shape := ⟨2, ![1024, 128]⟩
abbrev S1024x64 : Shape := ⟨2, ![1024, 64]⟩
abbrev S64x1024 : Shape := ⟨2, ![64, 1024]⟩
abbrev S1024x1 : Shape := ⟨2, ![1024, 1]⟩
abbrev S1x1024x64 : Shape := ⟨3, ![1, 1024, 64]⟩

abbrev nBuf : Space → Nat
  | .hbm => 18
  | .vmem => 22
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S8192x3072, .bf16⟩
  | .hbm, ⟨10, _⟩ => ⟨S8x1024x3072, .bf16⟩
  | .hbm, ⟨11, _⟩ => ⟨S8x1024x1024, .bf16⟩
  | .hbm, ⟨12, _⟩ => ⟨S8192x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S8x1024x1024_S8192x1024 : S8x1024x1024.ShapeCasts S8192x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x3072_S8x1024x3072 : S8192x3072.ShapeCasts S8x1024x3072
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x128_S1x1024x64_0_0_0 : (Rect.unit (s := S1x1024x128) ![0, 0, 0] S1x1024x64.size inb_S1x1024x128_S1x1024x64_0_0_0).PackedRows (EltTy.packing .bf16)
  inb_S1x1024x128_S1x1024x64_0_0_64 : ∀ a, (![0, 0, 64] : Fin 3 → Nat) a + S1x1024x64.size a ≤ S1x1024x128.size a
  packedbf16_S1x1024x128_S1x1024x64_0_0_64 : (Rect.unit (s := S1x1024x128) ![0, 0, 64] S1x1024x64.size inb_S1x1024x128_S1x1024x64_0_0_64).PackedRows (EltTy.packing .bf16)
  transposes_S1024x1024_S1024x1024_1_0 : S1024x1024.Transposes [1, 0] S1024x1024
  shapeCasts_S1024_S1x1024 : S1024.ShapeCasts S1x1024
  shapeCasts_S8192x1024_S8x1024x1024 : S8192x1024.ShapeCasts S8x1024x1024
  dot_S1024x1024_S1024x1024_S1024x1024_1_0_0_1_n_n_wf : DotDims.WF S1024x1024 S1024x1024 S1024x1024 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .bf16 = 32 ∨ (Rect.block (s := S8192x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x3072.size a
  hwx1_0 : ∀ i : grid1.Coords, EltTy.bits .bf16 = 32 ∨ (Rect.block (s := S8x1024x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x3072, .f32⟩
  | .hbm, ⟨6, _⟩ => ⟨S1x1x3072, .f32⟩
  | .hbm, ⟨7, _⟩ => ⟨S8x1024x3072, .f32⟩
  | .hbm, ⟨8, _⟩ => ⟨S8x1024x3072, .f32⟩
  | .hbm, ⟨9, _⟩ => ⟨S8x1024x3x16x64, .f32⟩
  | .hbm, ⟨10, _⟩ => ⟨S3x8x16x1024x64, .f32⟩
  | .hbm, ⟨11, _⟩ => ⟨S1x8x16x1024x64, .f32⟩
  | .hbm, ⟨12, _⟩ => ⟨S8x16x1024x64, .f32⟩
  | .hbm, ⟨13, _⟩ => ⟨S1x8x16x1024x64, .f32⟩
  | .hbm, ⟨14, _⟩ => ⟨S8x16x1024x64, .f32⟩
  | .hbm, ⟨15, _⟩ => ⟨S1x8x16x1024x64, .f32⟩
  | .hbm, ⟨16, _⟩ => ⟨S8x16x1024x64, .f32⟩
  | .hbm, ⟨17, _⟩ => ⟨S8x16x1024x1024, .f32⟩
  | .hbm, ⟨18, _⟩ => ⟨S_, .f32⟩
  | .hbm, ⟨19, _⟩ => ⟨S8x16x1024x1024, .f32⟩
  | .hbm, ⟨20, _⟩ => ⟨S8x16x1024x1024, .f32⟩
  | .hbm, ⟨21, _⟩ => ⟨S_, .f32⟩
  | .hbm, ⟨22, _⟩ => ⟨S8x16x1024, .f32⟩
  | .hbm, ⟨23, _⟩ => ⟨S_, .f32⟩
  | .hbm, ⟨24, _⟩ => ⟨S8x16x1024, .f32⟩
  | .hbm, ⟨25, _⟩ => ⟨S8x16x1024, .f32⟩
  | .hbm, ⟨26, _⟩ => ⟨S8x16x1024x1, .f32⟩
  | .hbm, ⟨27, _⟩ => ⟨S8x16x1024x1024, .f32⟩
  | .hbm, ⟨28, _⟩ => ⟨S8x16x1024x1024, .f32⟩
  | .hbm, ⟨29, _⟩ => ⟨S8x16x1024x1024, .f32⟩
  | .hbm, ⟨30, _⟩ => ⟨S_, .f32⟩
  | .hbm, ⟨31, _⟩ => ⟨S8x16x1024, .f32⟩
  | .hbm, ⟨32, _⟩ => ⟨S8x16x1024x1, .f32⟩
  | .hbm, ⟨33, _⟩ => ⟨S8x16x1024x1024, .f32⟩
  | .hbm, ⟨34, _⟩ => ⟨S8x16x1024x1024, .f32⟩
  | .hbm, ⟨35, _⟩ => ⟨S8x16x1024x64, .f32⟩
  | .hbm, ⟨36, _⟩ => ⟨S8x1024x16x64, .f32⟩
  | .hbm, ⟨37, _⟩ => ⟨S8x1024x1024, .f32⟩
  | .hbm, ⟨38, _⟩ => ⟨S8x1024x1024, .f32⟩
  | .hbm, ⟨39, _⟩ => ⟨S1x1x1024, .f32⟩
  | .hbm, ⟨40, _⟩ => ⟨S8x1024x1024, .f32⟩
  | .hbm, ⟨41, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.KReg0.lean ====
/-
  The projection kernel of pallas_call 0 at an arbitrary entry valuation `V`: each window's block at a grid point,
  what the body leaves in the output window's buffer (one whole-block store of the payload of the three loaded blocks),
  the body's triple, the pipeline's proof data and the body obligation at every point.
-/
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block and the whole 1 × 1024 bias row. -/
abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- The output window's buffer after the body: the payload of the three loaded blocks, stored over the whole block. -/
def out0_3 (x0 : Vec F S1024x1024 .f32) (x1 : Vec F S1024x1024 .bf16) (x2 : Vec F S1x1024 .f32) : Vec F S1024x1024 .bf16 :=
  View.canon [⟨r0_m, k0_pay1 (View.ld x0 r0_m) (View.ld x1 r0_m) (View.ld x2 r0_b)⟩]

/-- The one store covers the buffer. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

set_option maxHeartbeats 1000000 in
/-- The body on whole staging memrefs, the inputs' at contents `x0 x1 x2` and the output's at anything, runs to the
    continuation holding the inputs' as they were and the output's at `out0_3 x0 x1 x2`. -/
theorem sound_kernel0 (c : Dev nD) (E : Set ℕ) (i : grid0.Coords) (arg0 : Memref sig .tc .vmem S1024x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  The attention kernel of pallas_call 1 at an arbitrary entry valuation `V`: each window's block at a grid point (one
  batch, one pair of heads: 1024 rows of 128 columns of the queries, of the keys, of the values), what the body leaves
  in the output window's buffer (two stores, the first head's 64 columns and the second head's), the body's triple,
  the pipeline's proof data — the three input windows read ONE array, so each holds a third share of it — and the body
  obligation at every point.
-/
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block, its first 64 columns and its last 64 columns. -/
abbrev r1_w : Rect S1x1024x128 := Rect.unit (s := S1x1024x128) ![0, 0, 0] S1x1024x128.size inb_S1x1024x128_S1x1024x128_0_0_0
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's buffer after the body: the second head's result over the last 64 columns, the first head's over
    the first 64 (the stores last first). -/
def out1_3 (x0 : Vec F S1x1024x128 .bf16) (x1 : Vec F S1x1024x128 .bf16) (x2 : Vec F S1x1024x128 .bf16) : Vec F S1x1024x128 .bf16 :=
  View.canon [⟨r1_hi, k1_pay2 (k1_pay7 (View.ld x2 r1_w)) (k1_pay8 (View.ld x0 r1_w) (View.ld x1 r1_w))⟩,
    ⟨r1_lo, k1_pay1 (k1_pay6 (View.ld x0 r1_w) (View.ld x1 r1_w) (View.ld x2 r1_w))⟩]

/-- The two stores tile the buffer, so they cover it. -/
theorem cover1_3 (p0 : Vec F S1x1024x64 .bf16) (p1 : Vec F S1x1024x64 .bf16) (y : S1x1024x128.Idx) :
    ∃ pc ∈ ([⟨r1_hi, p0⟩, ⟨r1_lo, p1⟩] : List (View.Piece (Elt F) S1x1024x128 .bf16)), y ∈ pc.1.set :=
  View.cover_of_tiled [⟨r1_hi, p0⟩, ⟨r1_lo, p1⟩] S1x1024x64.size (by rfl) y

set_option maxHeartbeats 1000000 in
/-- The body on whole staging memrefs, the inputs' at contents `x0 x1 x2` and the output's at anything, runs to the
    continuation holding the inputs' as they were and the output's at `out1_3 x0 x1 x2`. -/
theorem sound_kernel1 (c : Dev nD) (E : Set ℕ) (i : grid1.Coords) (arg0 : Memref sig .tc .vmem S1x1024x128 .bf16) (harg0 : arg0.IsWhole) (arg1 : Memref sig .tc .vmem S1x1024x128 .bf16) (harg1 : arg1.IsWhole) (arg2 : Memref sig .tc .vmem S1x1024x128 .bf16) (harg2 : arg2.IsWhole) (arg3 : Memref sig .tc .vmem S1x1024x128 .bf16) (harg3 : arg3.IsWhole)
    (x0 : Vec F S1x1024x128 .bf16) (x1 : Vec F S1x1024x128 .bf16) (x2 : Vec F S1x1024x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_pairs_kernel i arg0 harg0 arg1 harg1 arg2 harg2 arg3 harg3) K := by
  simp only [cc1__attn_pairs_kernel_eq_skeleton]; unfold cc1__attn_pairs_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of pipeline 1 on core `c`: the arrays as the region finds them; after the body at point `t` each
    input's buffer at its block and the output's at `out1_3` of the input blocks; nothing owed; the one array behind
    the three input windows held a third each (a half, and two quarters). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The projection kernel of pallas_call 2 at an arbitrary entry valuation `V`: each window's block at a grid point,
  what the body leaves in the output window's buffer (one whole-block store of the payload of the three loaded blocks),
  the body's triple, the pipeline's proof data and the body obligation at every point.
-/
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 × 1024 block and the whole 1 × 1024 bias row. -/
abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output window's buffer after the body: the payload of the three loaded blocks, stored over the whole block. -/
def out2_3 (x0 : Vec F S1024x1024 .bf16) (x1 : Vec F S1024x1024 .bf16) (x2 : Vec F S1x1024 .f32) : Vec F S1024x1024 .f32 :=
  View.canon [⟨r2_m, k2_pay1 (View.ld x0 r2_m) (View.ld x1 r2_m) (View.ld x2 r2_b)⟩]

/-- The one store covers the buffer. -/
theorem cover2_3 (p0 : Vec F S1024x1024 .f32) (y : S1024x1024.Idx) :
    ∃ pc ∈ ([⟨r2_m, p0⟩] : List (View.Piece (Elt F) S1024x1024 .f32)), y ∈ pc.1.set :=
  View.cover_of_tiled [⟨r2_m, p0⟩] S1024x1024.size (by rfl) y

set_option maxHeartbeats 1000000 in
/-- The body on whole staging memrefs, the inputs' at contents `x0 x1 x2` and the output's at anything, runs to the
    continuation holding the inputs' as they were and the output's at `out2_3 x0 x1 x2`. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBound.lean ====
/-
  The buffers' contents at each boundary of the program (the launch memory, then each host stretch applied, then each
  region's arrays at what its write-backs leave), the arguments read back through them to the launch memory, and the
  proof data of every pipeline at its region's entry contents.
-/
import proofs.«137956_j2422361555213_2_alg».proof.Proof.KReg0
import proofs.«137956_j2422361555213_2_alg».proof.Proof.KReg1
import proofs.«137956_j2422361555213_2_alg».proof.Proof.KReg2
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import proofs.«137956_j2422361555213_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev En1 : (c : Dev nD) → (b : Ref sig .tc) → Buf (Elt F) ((c : Thread nD τ).loc b) := fun c b => W1 m c b
/-- At the first projection's exit: its arrays at what the pipeline leaves, every other buffer as entered. -/
def W2 (c : Dev nD) : Valuation τ sig (Elt F) :=
  Pipeline.withArrays spec0 c (W1 m c) fun w => (dat0 (En1 m) c).arrAt w cfg0.N
theorem W2_arr (c : Dev nD) (w : Fin cfg0.W) :
    W2 m c (Proc.devRef .tc (Pipeline.arrRef spec0 w)) = (dat0 (En1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Ex2 : (c : Dev nD) → (b : Ref sig .tc) → Buf (Elt F) ((c : Thread nD τ).loc b) := fun c b => W2 m c b
theorem hF0 (c : Dev nD) (w : Fin cfg0.W) : (dat0 (En1 m) c).arrAt w cfg0.N = Ex2 m c (Pipeline.arrRef spec0 w) :=
  (W2_arr m c w).symm
theorem hrest0 (c : Dev nD) : ∀ b, b ∉ Finset.univ.image (Pipeline.arrRef spec0) → Ex2 m c b = En1 m c b :=
  fun b hb => W2_of_ne m c b fun w e => hb (Finset.mem_image.mpr ⟨w, Finset.mem_univ _, e⟩)

/-- After the second host stretch (the attention kernel's entry). -/
abbrev W3 : Dev nD → Valuation τ sig (Elt F) := fun c => StableHlo.after hostOps1 (W2 m c)
abbrev En3 : (c : Dev nD) → (b : Ref sig .tc) → Buf (Elt F) ((c : Thread nD τ).loc b) := fun c b => W3 m c b
/-- What the attention kernel's write-backs leave in its output array. -/
def o4 (c : Dev nD) : Buf (Elt F) ((c : Thread nD τ).loc main_v6) := (dat1 (En3 m) c).arrAt 3 cfg1.N
/-- At the attention kernel's exit: the output array at what the pipeline leaves, every other buffer as entered (its
    three input windows read one array, which no write-back touches). -/
def W4 (c : Dev nD) : Valuation τ sig (Elt F) := Function.update (W3 m c) (Proc.devRef .tc main_v6) (o4 m c)
theorem W4_out (c : Dev nD) : W4 m c (Proc.devRef .tc main_v6) = o4 m c := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..
abbrev Ex4 : (c : Dev nD) → (b : Ref sig .tc) → Buf (Elt F) ((c : Thread nD τ).loc b) := fun c b => W4 m c b

/-- After the third host stretch (the output projection's entry). -/
abbrev W5 : Dev nD → Valuation τ sig (Elt F) := fun c => StableHlo.after hostOps2 (W4 m c)
abbrev En5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (dat2 (En5 m) c).arrAt w cfg2.N
theorem W6_arr (c : Dev nD) (w : Fin cfg2.W) :
    W6 m c (Proc.devRef .tc (Pipeline.arrRef spec2 w)) = (dat2 (En5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev Ex6 : (c : Dev nD) → (b : Ref sig .tc) → Buf (Elt F) ((c : Thread nD τ).loc b) := fun c b => W6 m c b
theorem hF2 (c : Dev nD) (w : Fin cfg2.W) : (dat2 (En5 m) c).arrAt w cfg2.N = Ex6 m c (Pipeline.arrRef spec2 w) :=
  (W6_arr m c w).symm
theorem hrest2 (c : Dev nD) : ∀ b, b ∉ Finset.univ.image (Pipeline.arrRef spec2) → Ex6 m c b = En5 m c b :=
  fun b hb => W6_of_ne m c b fun w e => hb (Finset.mem_image.mpr ⟨w, Finset.mem_univ _, e⟩)

/-- After the last host stretch: the program's end. -/
abbrev W7 : Dev nD → Valuation τ sig (Elt F) := fun c => StableHlo.after hostOps3 (W6 m c)

/-! ## The arguments end as launched: no host operation writes one and no region has one among its arrays -/

theorem W7_main_arg0 (c : Dev nD) : W7 m c (Proc.devRef .tc main_arg0) = m ((c : Thread nD τ).loc main_arg0) :=
  (StableHlo.after_of_writes_sub hostOps3 _ hostOps3_writes (by decide : main_arg0 ∉ hostOps3_W)).trans <|
  (W6_of_ne m c main_arg0 (by decide)).trans <|
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl
theorem W7_main_arg1 (c : Dev nD) : W7 m c (Proc.devRef .tc main_arg1) = m ((c : Thread nD τ).loc main_arg1) :=
  (StableHlo.after_of_writes_sub hostOps3 _ hostOps3_writes (by decide : main_arg1 ∉ hostOps3_W)).trans <|
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl
theorem W7_main_arg2 (c : Dev nD) : W7 m c (Proc.devRef .tc main_arg2) = m ((c : Thread nD τ).loc main_arg2) :=
  (StableHlo.after_of_writes_sub hostOps3 _ hostOps3_writes (by decide : main_arg2 ∉ hostOps3_W)).trans <|
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl
theorem W7_main_arg3 (c : Dev nD) : W7 m c (Proc.devRef .tc main_arg3) = m ((c : Thread nD τ).loc main_arg3) :=
  (StableHlo.after_of_writes_sub hostOps3 _ hostOps3_writes (by decide : main_arg3 ∉ hostOps3_W)).trans <|
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl
theorem W7_main_arg4 (c : Dev nD) : W7 m c (Proc.devRef .tc main_arg4) = m ((c : Thread nD τ).loc main_arg4) :=
  (StableHlo.after_of_writes_sub hostOps3 _ hostOps3_writes (by decide : main_arg4 ∉ hostOps3_W)).trans <|
  (W6_of_ne m c main_arg4 (by decide)).trans <|
  (StableHlo.after_of_writes_sub hostOps2 _ hostOps2_writes (by decide : main_arg4 ∉ hostOps2_W)).trans <|
  (W4_of_ne m c main_arg4 (by decide)).trans <|
  (StableHlo.after_of_writes_sub hostOps1 _ hostOps1_writes (by decide : main_arg4 ∉ hostOps1_W)).trans <|
  (W2_of_ne m c main_arg4 (by decide)).trans <|
  (StableHlo.after_of_writes_sub hostOps0 _ hostOps0_writes (by decide : main_arg4 ∉ hostOps0_W)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

end Cert.Kernel.Hand

end
-- ==== Proof.KShare1.lean ====
/-
  The attention kernel's three input windows read ONE array. Here: the two distinct buffers behind its four windows,
  held whole at the full share, ARE the pipeline's arrays with the shared input array dealt in three shares (a half and
  two quarters, which compose to the whole), in both directions.
-/
import proofs.«137956_j2422361555213_2_alg».proof.Proof.KReg1
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows are two: the fused projection and the output. -/
theorem arrImage1 : (Finset.univ.image (Pipeline.arrRef spec1) : Finset (Ref sig .tc)) = {main_v5, main_v6} := by decide

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The two buffers whole are the pipeline's arrays: the shared input array split a half and two quarters. -/
theorem split1 (c : Dev nD)
    (G : (w : Fin cfg1.W) → Buf (Elt F) ((cfg1.win w).arr.view.loc (c.tc : Thread nD τ))) (hG : ∀ w, G w = V c (Pipeline.arrRef spec1 w)) :
    (Pipeline.arrBufs (Ix := Unit) (Name := ℕ) (U := UR sig nD τ) (Lvl := ℕ) spec1 c (V c) : sProp 𝕄) ⊢ (dat1 V c).arrays G := by
  unfold Pipeline.arrBufs Dat.arrays
  rw [arrImage1, bigSep_W1, BI.bigSep_insert (by decide), BI.bigSep_singleton, share1_0, share1_1, share1_2, share1_3,
    (arr_whole1 0).set_eq_univ, (arr_whole1 3).set_eq_univ, hG 0, hG 1, hG 2, hG 3]
  show iprop(((c.tc : Thread nD τ).loc main_v5 ↦{fullShare} V c main_v5) ∗ ((c.tc : Thread nD τ).loc main_v6 ↦{fullShare} V c main_v6))
    ⊢ (iprop(((c.tc : Thread nD τ).loc main_v5 ↦{fullShare.left} V c main_v5) ∗ ((c.tc : Thread nD τ).loc main_v5 ↦{fullShare.right.left} V c main_v5)
        ∗ ((c.tc : Thread nD τ).loc main_v5 ↦{fullShare.right.right} V c main_v5) ∗ ((c.tc : Thread nD τ).loc main_v6 ↦{fullShare} V c main_v6)) : sProp 𝕄)
  have hs1 : (((c.tc : Thread nD τ).loc main_v5 ↦{fullShare} V c main_v5) : sProp 𝕄) ⊢ iprop(((c.tc : Thread nD τ).loc main_v5 ↦{fullShare.left} V c main_v5) ∗ ((c.tc : Thread nD τ).loc main_v5 ↦{fullShare.right} V c main_v5)) :=
    (pointsTo_share (PosShare.mem_left_op_right fullShare)).1
  have hs2 : (((c.tc : Thread nD τ).loc main_v5 ↦{fullShare.right} V c main_v5) : sProp 𝕄) ⊢ iprop(((c.tc : Thread nD τ).loc main_v5 ↦{fullShare.right.left} V c main_v5) ∗ ((c.tc : Thread nD τ).loc main_v5 ↦{fullShare.right.right} V c main_v5)) :=
    (pointsTo_share (PosShare.mem_left_op_right fullShare.right)).1
  iintro ⟨H5, H6⟩
  ihave H := hs1 $$ H5
  icases H with ⟨Hl, Hr⟩
  ihave H := hs2 $$ Hr
  icases H with ⟨Hrl, Hrr⟩
  isplitl [Hl]; · iexact Hl
  isplitl [Hrl]; · iexact Hrl
  isplitl [Hrr]; · iexact Hrr
  iexact H6

/-- The pipeline's arrays, the shared input array's three shares at one contents, are the two buffers whole. -/
theorem join1 (c : Dev nD)
    (G : (w : Fin cfg1.W) → Buf (Elt F) ((cfg1.win w).arr.view.loc (c.tc : Thread nD τ))) (V' : (b : Ref sig .tc) → Buf (Elt F) ((c : Thread nD τ).loc b))
    (h0 : G 0 = V' (Pipeline.arrRef spec1 0)) (h1 : G 1 = V' (Pipeline.arrRef spec1 1)) (h2 : G 2 = V' (Pipeline.arrRef spec1 2)) (h3 : G 3 = V' (Pipeline.arrRef spec1 3)) :
    (dat1 V c).arrays G ⊢ (Pipeline.arrBufs (Ix := Unit) (Name := ℕ) (U := UR sig nD τ) (Lvl := ℕ) spec1 c V' : sProp 𝕄) := by
  unfold Pipeline.arrBufs Dat.arrays
  rw [arrImage1, bigSep_W1, BI.bigSep_insert (by decide), BI.bigSep_singleton, share1_0, share1_1, share1_2, share1_3,
    (arr_whole1 0).set_eq_univ, (arr_whole1 3).set_eq_univ, h0, h1, h2, h3]
  show (iprop(((c.tc : Thread nD τ).loc main_v5 ↦{fullShare.left} V' main_v5) ∗ ((c.tc : Thread nD τ).loc main_v5 ↦{fullShare.right.left} V' main_v5)
        ∗ ((c.tc : Thread nD τ).loc main_v5 ↦{fullShare.right.right} V' main_v5) ∗ ((c.tc : Thread nD τ).loc main_v6 ↦{fullShare} V' main_v6)) : sProp 𝕄)
    ⊢ iprop(((c.tc : Thread nD τ).loc main_v5 ↦{fullShare} V' main_v5) ∗ ((c.tc : Thread nD τ).loc main_v6 ↦{fullShare} V' main_v6))
  iintro ⟨Hl, Hrl, Hrr, H6⟩
  isplitr [H6]
  · iapply (pointsTo_share (PosShare.mem_left_op_right fullShare)).2
    isplitl [Hl]; · iexact Hl
    iapply (pointsTo_share (PosShare.mem_left_op_right fullShare.right)).2
    isplitl [Hrl] <;> iassumption
  iexact H6
end Cert.Kernel.Hand

end
-- ==== Proof.KRun.lean ====
/-
  The run of the three pallas_calls among the host operations: each region as a segment over the thread state "every
  unscoped buffer at the boundary's contents", @main as the list of its seven segments, and the theorem that every weakly
  fair execution terminates with the result buffer at the last boundary's contents and the five arguments as launched.
-/
import proofs.«137956_j2422361555213_2_alg».proof.Proof.KBound
import proofs.«137956_j2422361555213_2_alg».proof.Proof.KShare1
import proofs.«137956_j2422361555213_2_alg».proof.Proof.Gen.Kernel.Launch
import proofs.«137956_j2422361555213_2_alg».proof.Proof.Gen.Kernel.Skeleton
import proofs.«137956_j2422361555213_2_alg».proof.Proof.Gen.Kernel.Points
import proofs.«137956_j2422361555213_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- Pallas_call 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W3`, left at `W4`. Its three input
    windows read one array: the two buffers behind its windows are split out of the unscoped buffers, the shared one dealt
    in three shares (`split1`), and at the exit the shares — all at the entry contents, an input array being never
    written — are joined again (`join1`) beside the output array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit : (unscopedBufs c (En3 m c) : sProp 𝕄)
        ⊢ iprop((pdats m 1 c).arrays ((pdats m 1 c).arrAt · 0) ∗ Pipeline.unscopedRest spec1 c (En3 m c)) := by
      rw [Pipeline.PerCore.unscopedBufs_split₀ (fun _ : Dev nD => cfgs) 1 c winFacts₀1.arr_unscoped (Ix := Unit) (Name := ℕ) (U := UR sig nD τ) (Lvl := ℕ) (En3 m c)]
      exact sep_mono (split1 (En3 m) c _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, w ≠ 3 → (dat1 (En3 m) c).arrAt w cfg1.N = Ex4 m c (Pipeline.arrRef spec1 w) := fun w hw => by
      have hne : Pipeline.arrRef spec1 w ≠ main_v6 := by
        revert hw; revert w; decide
      exact (((dat1 (En3 m) c).arrAt_in w (by revert hw; revert w; decide) _).trans (A_eq1 (En3 m) c w)).trans (W4_of_ne m c _ hne).symm
    have hjoin : iprop((pdats m 1 c).arrays ((pdats m 1 c).arrAt · cfg1.N) ∗ Pipeline.unscopedRest spec1 c (En3 m c))
        ⊢ (unscopedBufs c (Ex4 m c) : sProp 𝕄) := by
      rw [Pipeline.PerCore.unscopedBufs_split₀ (fun _ : Dev nD => cfgs) 1 c winFacts₀1.arr_unscoped (Ix := Unit) (Name := ℕ) (U := UR sig nD τ) (Lvl := ℕ) (Ex4 m c)]
      refine sep_mono (join1 (En3 m) c _ (Ex4 m c) (hin 0 (by decide)) (hin 1 (by decide)) (hin 2 (by decide)) (W4_out m c).symm) (Entails.of_eq ?_)
      unfold Pipeline.unscopedRest
      exact bigSep_congr fun b hb => by
        rw [show Ex4 m c b = En3 m c b from W4_of_ne m c b fun e => (Finset.mem_sdiff.mp hb).2 (Finset.mem_image.mpr ⟨3, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per pallas_call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (items m) := (main_chain c).trans (by chain_rfl)

set_option backward.isDefEq.respectTransparency.types false in
/-- From any memory with zero counters, every weakly fair execution of @main terminates, nothing faulting, and every final
    state holds the result buffer at the last boundary's contents and the five argument arrays as launched. -/
theorem run : θ_run defs (onTc (τ := τ) (main (F := F))) ⟨m, fun _ => 0, ρ⟩ (fun r => ∀ c : Dev nD,
      r.2.mem ((c.tc : Thread nD τ).loc main_v12) = W7 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ (iprop(Tₙ m c ∗ ∃ W, owes (c : Thread nD τ) (0 : CellTallies nD τ sig Unit) W) : sProp 𝕄)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v12 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Hand

end
-- ==== Proof.Reg0.lean ====
/-
  The projection kernel of pallas_call 0 at an arbitrary entry valuation `V`: each window's block at a grid point,
  what the body leaves in the output window's buffer (one whole-block store of the payload of the three loaded blocks),
  the body's triple, the pipeline's proof data and the body obligation at every point.
-/
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block and the whole 1 × 1024 bias row. -/
abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- The output window's buffer after the body: the payload of the three loaded blocks, stored over the whole block. -/
def out0_3 (x0 : Vec F S1024x1024 .f32) (x1 : Vec F S1024x1024 .bf16) (x2 : Vec F S1x1024 .f32) : Vec F S1024x1024 .bf16 :=
  View.canon [⟨r0_m, k0_pay1 (View.ld x0 r0_m) (View.ld x1 r0_m) (View.ld x2 r0_b)⟩]

/-- The one store covers the buffer. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

set_option maxHeartbeats 1000000 in
/-- The body on whole staging memrefs, the inputs' at contents `x0 x1 x2` and the output's at anything, runs to the
    continuation holding the inputs' as they were and the output's at `out0_3 x0 x1 x2`. -/
theorem sound_kernel0 (c : Dev nD) (E : Set ℕ) (i : grid0.Coords) (arg0 : Memref sig .tc .vmem S1024x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  The attention kernel of pallas_call 1 at an arbitrary entry valuation `V`: each window's block at a grid point (one
  batch, one pair of heads: 1024 rows of 128 columns of the queries, of the keys, of the values), what the body leaves
  in the output window's buffer (two stores, the first head's 64 columns and the second head's), the body's triple,
  the pipeline's proof data — the three input windows read ONE array, so each holds a third share of it — and the body
  obligation at every point.
-/
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block, its first 64 columns and its last 64 columns. -/
abbrev r1_w : Rect S1x1024x128 := Rect.unit (s := S1x1024x128) ![0, 0, 0] S1x1024x128.size inb_S1x1024x128_S1x1024x128_0_0_0
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's buffer after the body: the second head's result over the last 64 columns, the first head's over
    the first 64 (the stores last first). -/
def out1_3 (x0 : Vec F S1x1024x128 .bf16) (x1 : Vec F S1x1024x128 .bf16) (x2 : Vec F S1x1024x128 .bf16) : Vec F S1x1024x128 .bf16 :=
  View.canon [⟨r1_hi, k1_pay2 (k1_pay7 (View.ld x2 r1_w)) (k1_pay8 (View.ld x0 r1_w) (View.ld x1 r1_w))⟩,
    ⟨r1_lo, k1_pay1 (k1_pay6 (View.ld x0 r1_w) (View.ld x1 r1_w) (View.ld x2 r1_w))⟩]

/-- The two stores tile the buffer, so they cover it. -/
theorem cover1_3 (p0 : Vec F S1x1024x64 .bf16) (p1 : Vec F S1x1024x64 .bf16) (y : S1x1024x128.Idx) :
    ∃ pc ∈ ([⟨r1_hi, p0⟩, ⟨r1_lo, p1⟩] : List (View.Piece (Elt F) S1x1024x128 .bf16)), y ∈ pc.1.set :=
  View.cover_of_tiled [⟨r1_hi, p0⟩, ⟨r1_lo, p1⟩] S1x1024x64.size (by rfl) y

set_option maxHeartbeats 1000000 in
/-- The body on whole staging memrefs, the inputs' at contents `x0 x1 x2` and the output's at anything, runs to the
    continuation holding the inputs' as they were and the output's at `out1_3 x0 x1 x2`. -/
theorem sound_kernel1 (c : Dev nD) (E : Set ℕ) (i : grid1.Coords) (arg0 : Memref sig .tc .vmem S1x1024x128 .bf16) (harg0 : arg0.IsWhole) (arg1 : Memref sig .tc .vmem S1x1024x128 .bf16) (harg1 : arg1.IsWhole) (arg2 : Memref sig .tc .vmem S1x1024x128 .bf16) (harg2 : arg2.IsWhole) (arg3 : Memref sig .tc .vmem S1x1024x128 .bf16) (harg3 : arg3.IsWhole)
    (x0 : Vec F S1x1024x128 .bf16) (x1 : Vec F S1x1024x128 .bf16) (x2 : Vec F S1x1024x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_pairs_kernel i arg0 harg0 arg1 harg1 arg2 harg2 arg3 harg3) K := by
  simp only [cc1__attn_pairs_kernel_eq_skeleton]; unfold cc1__attn_pairs_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of pipeline 1 on core `c`: the arrays as the region finds them; after the body at point `t` each
    input's buffer at its block and the output's at `out1_3` of the input blocks; nothing owed; the one array behind
    the three input windows held a third each (a half, and two quarters). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
/-
  The projection kernel of pallas_call 2 at an arbitrary entry valuation `V`: each window's block at a grid point,
  what the body leaves in the output window's buffer (one whole-block store of the payload of the three loaded blocks),
  the body's triple, the pipeline's proof data and the body obligation at every point.
-/
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 × 1024 block and the whole 1 × 1024 bias row. -/
abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output window's buffer after the body: the payload of the three loaded blocks, stored over the whole block. -/
def out2_3 (x0 : Vec F S1024x1024 .bf16) (x1 : Vec F S1024x1024 .bf16) (x2 : Vec F S1x1024 .f32) : Vec F S1024x1024 .f32 :=
  View.canon [⟨r2_m, k2_pay1 (View.ld x0 r2_m) (View.ld x1 r2_m) (View.ld x2 r2_b)⟩]

/-- The one store covers the buffer. -/
theorem cover2_3 (p0 : Vec F S1024x1024 .f32) (y : S1024x1024.Idx) :
    ∃ pc ∈ ([⟨r2_m, p0⟩] : List (View.Piece (Elt F) S1024x1024 .f32)), y ∈ pc.1.set :=
  View.cover_of_tiled [⟨r2_m, p0⟩] S1024x1024.size (by rfl) y

set_option maxHeartbeats 1000000 in
/-- The body on whole staging memrefs, the inputs' at contents `x0 x1 x2` and the output's at anything, runs to the
    continuation holding the inputs' as they were and the output's at `out2_3 x0 x1 x2`. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Bound.lean ====
/-
  The buffers' contents at each boundary of the program (the launch memory, then each host stretch applied, then each
  region's arrays at what its write-backs leave), the arguments read back through them to the launch memory, and the
  proof data of every pipeline at its region's entry contents.
-/
import proofs.«137956_j2422361555213_2_alg».proof.Proof.Reg0
import proofs.«137956_j2422361555213_2_alg».proof.Proof.Reg1
import proofs.«137956_j2422361555213_2_alg».proof.Proof.Reg2
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import proofs.«137956_j2422361555213_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev En1 : (c : Dev nD) → (b : Ref sig .tc) → Buf (Elt F) ((c : Thread nD τ).loc b) := fun c b => W1 m c b
/-- At the first projection's exit: its arrays at what the pipeline leaves, every other buffer as entered. -/
def W2 (c : Dev nD) : Valuation τ sig (Elt F) :=
  Pipeline.withArrays spec0 c (W1 m c) fun w => (dat0 (En1 m) c).arrAt w cfg0.N
theorem W2_arr (c : Dev nD) (w : Fin cfg0.W) :
    W2 m c (Proc.devRef .tc (Pipeline.arrRef spec0 w)) = (dat0 (En1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Ex2 : (c : Dev nD) → (b : Ref sig .tc) → Buf (Elt F) ((c : Thread nD τ).loc b) := fun c b => W2 m c b
theorem hF0 (c : Dev nD) (w : Fin cfg0.W) : (dat0 (En1 m) c).arrAt w cfg0.N = Ex2 m c (Pipeline.arrRef spec0 w) :=
  (W2_arr m c w).symm
theorem hrest0 (c : Dev nD) : ∀ b, b ∉ Finset.univ.image (Pipeline.arrRef spec0) → Ex2 m c b = En1 m c b :=
  fun b hb => W2_of_ne m c b fun w e => hb (Finset.mem_image.mpr ⟨w, Finset.mem_univ _, e⟩)

/-- After the second host stretch (the attention kernel's entry). -/
abbrev W3 : Dev nD → Valuation τ sig (Elt F) := fun c => StableHlo.after hostOps1 (W2 m c)
abbrev En3 : (c : Dev nD) → (b : Ref sig .tc) → Buf (Elt F) ((c : Thread nD τ).loc b) := fun c b => W3 m c b
/-- What the attention kernel's write-backs leave in its output array. -/
def o4 (c : Dev nD) : Buf (Elt F) ((c : Thread nD τ).loc main_v6) := (dat1 (En3 m) c).arrAt 3 cfg1.N
/-- At the attention kernel's exit: the output array at what the pipeline leaves, every other buffer as entered (its
    three input windows read one array, which no write-back touches). -/
def W4 (c : Dev nD) : Valuation τ sig (Elt F) := Function.update (W3 m c) (Proc.devRef .tc main_v6) (o4 m c)
theorem W4_out (c : Dev nD) : W4 m c (Proc.devRef .tc main_v6) = o4 m c := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..
abbrev Ex4 : (c : Dev nD) → (b : Ref sig .tc) → Buf (Elt F) ((c : Thread nD τ).loc b) := fun c b => W4 m c b

/-- After the third host stretch (the output projection's entry). -/
abbrev W5 : Dev nD → Valuation τ sig (Elt F) := fun c => StableHlo.after hostOps2 (W4 m c)
abbrev En5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (dat2 (En5 m) c).arrAt w cfg2.N
theorem W6_arr (c : Dev nD) (w : Fin cfg2.W) :
    W6 m c (Proc.devRef .tc (Pipeline.arrRef spec2 w)) = (dat2 (En5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev Ex6 : (c : Dev nD) → (b : Ref sig .tc) → Buf (Elt F) ((c : Thread nD τ).loc b) := fun c b => W6 m c b
theorem hF2 (c : Dev nD) (w : Fin cfg2.W) : (dat2 (En5 m) c).arrAt w cfg2.N = Ex6 m c (Pipeline.arrRef spec2 w) :=
  (W6_arr m c w).symm
theorem hrest2 (c : Dev nD) : ∀ b, b ∉ Finset.univ.image (Pipeline.arrRef spec2) → Ex6 m c b = En5 m c b :=
  fun b hb => W6_of_ne m c b fun w e => hb (Finset.mem_image.mpr ⟨w, Finset.mem_univ _, e⟩)

/-- After the last host stretch: the program's end. -/
abbrev W7 : Dev nD → Valuation τ sig (Elt F) := fun c => StableHlo.after hostOps3 (W6 m c)

/-! ## The arguments end as launched: no host operation writes one and no region has one among its arrays -/

theorem W7_main_arg0 (c : Dev nD) : W7 m c (Proc.devRef .tc main_arg0) = m ((c : Thread nD τ).loc main_arg0) :=
  (StableHlo.after_of_writes_sub hostOps3 _ hostOps3_writes (by decide : main_arg0 ∉ hostOps3_W)).trans <|
  (W6_of_ne m c main_arg0 (by decide)).trans <|
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl
theorem W7_main_arg1 (c : Dev nD) : W7 m c (Proc.devRef .tc main_arg1) = m ((c : Thread nD τ).loc main_arg1) :=
  (StableHlo.after_of_writes_sub hostOps3 _ hostOps3_writes (by decide : main_arg1 ∉ hostOps3_W)).trans <|
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl
theorem W7_main_arg2 (c : Dev nD) : W7 m c (Proc.devRef .tc main_arg2) = m ((c : Thread nD τ).loc main_arg2) :=
  (StableHlo.after_of_writes_sub hostOps3 _ hostOps3_writes (by decide : main_arg2 ∉ hostOps3_W)).trans <|
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl
theorem W7_main_arg3 (c : Dev nD) : W7 m c (Proc.devRef .tc main_arg3) = m ((c : Thread nD τ).loc main_arg3) :=
  (StableHlo.after_of_writes_sub hostOps3 _ hostOps3_writes (by decide : main_arg3 ∉ hostOps3_W)).trans <|
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl
theorem W7_main_arg4 (c : Dev nD) : W7 m c (Proc.devRef .tc main_arg4) = m ((c : Thread nD τ).loc main_arg4) :=
  (StableHlo.after_of_writes_sub hostOps3 _ hostOps3_writes (by decide : main_arg4 ∉ hostOps3_W)).trans <|
  (W6_of_ne m c main_arg4 (by decide)).trans <|
  (StableHlo.after_of_writes_sub hostOps2 _ hostOps2_writes (by decide : main_arg4 ∉ hostOps2_W)).trans <|
  (W4_of_ne m c main_arg4 (by decide)).trans <|
  (StableHlo.after_of_writes_sub hostOps1 _ hostOps1_writes (by decide : main_arg4 ∉ hostOps1_W)).trans <|
  (W2_of_ne m c main_arg4 (by decide)).trans <|
  (StableHlo.after_of_writes_sub hostOps0 _ hostOps0_writes (by decide : main_arg4 ∉ hostOps0_W)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

end Cert.KernelIdeal.Hand

end
-- ==== Proof.Share1.lean ====
/-
  The attention kernel's three input windows read ONE array. Here: the two distinct buffers behind its four windows,
  held whole at the full share, ARE the pipeline's arrays with the shared input array dealt in three shares (a half and
  two quarters, which compose to the whole), in both directions.
-/
import proofs.«137956_j2422361555213_2_alg».proof.Proof.Reg1
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows are two: the fused projection and the output. -/
theorem arrImage1 : (Finset.univ.image (Pipeline.arrRef spec1) : Finset (Ref sig .tc)) = {main_v5, main_v6} := by decide

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The two buffers whole are the pipeline's arrays: the shared input array split a half and two quarters. -/
theorem split1 (c : Dev nD)
    (G : (w : Fin cfg1.W) → Buf (Elt F) ((cfg1.win w).arr.view.loc (c.tc : Thread nD τ))) (hG : ∀ w, G w = V c (Pipeline.arrRef spec1 w)) :
    (Pipeline.arrBufs (Ix := Unit) (Name := ℕ) (U := UR sig nD τ) (Lvl := ℕ) spec1 c (V c) : sProp 𝕄) ⊢ (dat1 V c).arrays G := by
  unfold Pipeline.arrBufs Dat.arrays
  rw [arrImage1, bigSep_W1, BI.bigSep_insert (by decide), BI.bigSep_singleton, share1_0, share1_1, share1_2, share1_3,
    (arr_whole1 0).set_eq_univ, (arr_whole1 3).set_eq_univ, hG 0, hG 1, hG 2, hG 3]
  show iprop(((c.tc : Thread nD τ).loc main_v5 ↦{fullShare} V c main_v5) ∗ ((c.tc : Thread nD τ).loc main_v6 ↦{fullShare} V c main_v6))
    ⊢ (iprop(((c.tc : Thread nD τ).loc main_v5 ↦{fullShare.left} V c main_v5) ∗ ((c.tc : Thread nD τ).loc main_v5 ↦{fullShare.right.left} V c main_v5)
        ∗ ((c.tc : Thread nD τ).loc main_v5 ↦{fullShare.right.right} V c main_v5) ∗ ((c.tc : Thread nD τ).loc main_v6 ↦{fullShare} V c main_v6)) : sProp 𝕄)
  have hs1 : (((c.tc : Thread nD τ).loc main_v5 ↦{fullShare} V c main_v5) : sProp 𝕄) ⊢ iprop(((c.tc : Thread nD τ).loc main_v5 ↦{fullShare.left} V c main_v5) ∗ ((c.tc : Thread nD τ).loc main_v5 ↦{fullShare.right} V c main_v5)) :=
    (pointsTo_share (PosShare.mem_left_op_right fullShare)).1
  have hs2 : (((c.tc : Thread nD τ).loc main_v5 ↦{fullShare.right} V c main_v5) : sProp 𝕄) ⊢ iprop(((c.tc : Thread nD τ).loc main_v5 ↦{fullShare.right.left} V c main_v5) ∗ ((c.tc : Thread nD τ).loc main_v5 ↦{fullShare.right.right} V c main_v5)) :=
    (pointsTo_share (PosShare.mem_left_op_right fullShare.right)).1
  iintro ⟨H5, H6⟩
  ihave H := hs1 $$ H5
  icases H with ⟨Hl, Hr⟩
  ihave H := hs2 $$ Hr
  icases H with ⟨Hrl, Hrr⟩
  isplitl [Hl]; · iexact Hl
  isplitl [Hrl]; · iexact Hrl
  isplitl [Hrr]; · iexact Hrr
  iexact H6

/-- The pipeline's arrays, the shared input array's three shares at one contents, are the two buffers whole. -/
theorem join1 (c : Dev nD)
    (G : (w : Fin cfg1.W) → Buf (Elt F) ((cfg1.win w).arr.view.loc (c.tc : Thread nD τ))) (V' : (b : Ref sig .tc) → Buf (Elt F) ((c : Thread nD τ).loc b))
    (h0 : G 0 = V' (Pipeline.arrRef spec1 0)) (h1 : G 1 = V' (Pipeline.arrRef spec1 1)) (h2 : G 2 = V' (Pipeline.arrRef spec1 2)) (h3 : G 3 = V' (Pipeline.arrRef spec1 3)) :
    (dat1 V c).arrays G ⊢ (Pipeline.arrBufs (Ix := Unit) (Name := ℕ) (U := UR sig nD τ) (Lvl := ℕ) spec1 c V' : sProp 𝕄) := by
  unfold Pipeline.arrBufs Dat.arrays
  rw [arrImage1, bigSep_W1, BI.bigSep_insert (by decide), BI.bigSep_singleton, share1_0, share1_1, share1_2, share1_3,
    (arr_whole1 0).set_eq_univ, (arr_whole1 3).set_eq_univ, h0, h1, h2, h3]
  show (iprop(((c.tc : Thread nD τ).loc main_v5 ↦{fullShare.left} V' main_v5) ∗ ((c.tc : Thread nD τ).loc main_v5 ↦{fullShare.right.left} V' main_v5)
        ∗ ((c.tc : Thread nD τ).loc main_v5 ↦{fullShare.right.right} V' main_v5) ∗ ((c.tc : Thread nD τ).loc main_v6 ↦{fullShare} V' main_v6)) : sProp 𝕄)
    ⊢ iprop(((c.tc : Thread nD τ).loc main_v5 ↦{fullShare} V' main_v5) ∗ ((c.tc : Thread nD τ).loc main_v6 ↦{fullShare} V' main_v6))
  iintro ⟨Hl, Hrl, Hrr, H6⟩
  isplitr [H6]
  · iapply (pointsTo_share (PosShare.mem_left_op_right fullShare)).2
    isplitl [Hl]; · iexact Hl
    iapply (pointsTo_share (PosShare.mem_left_op_right fullShare.right)).2
    isplitl [Hrl] <;> iassumption
  iexact H6
end Cert.KernelIdeal.Hand

end
-- ==== Proof.Run.lean ====
/-
  The run of the three pallas_calls among the host operations: each region as a segment over the thread state "every
  unscoped buffer at the boundary's contents", @main as the list of its seven segments, and the theorem that every weakly
  fair execution terminates with the result buffer at the last boundary's contents and the five arguments as launched.
-/
import proofs.«137956_j2422361555213_2_alg».proof.Proof.Bound
import proofs.«137956_j2422361555213_2_alg».proof.Proof.Share1
import proofs.«137956_j2422361555213_2_alg».proof.Proof.Gen.KernelIdeal.Launch
import proofs.«137956_j2422361555213_2_alg».proof.Proof.Gen.KernelIdeal.Skeleton
import proofs.«137956_j2422361555213_2_alg».proof.Proof.Gen.KernelIdeal.Points
import proofs.«137956_j2422361555213_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- Pallas_call 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (Ex2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W3`, left at `W4`. Its three input
    windows read one array: the two buffers behind its windows are split out of the unscoped buffers, the shared one dealt
    in three shares (`split1`), and at the exit the shares — all at the entry contents, an input array being never
    written — are joined again (`join1`) beside the output array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit : (unscopedBufs c (En3 m c) : sProp 𝕄)
        ⊢ iprop((pdats m 1 c).arrays ((pdats m 1 c).arrAt · 0) ∗ Pipeline.unscopedRest spec1 c (En3 m c)) := by
      rw [Pipeline.PerCore.unscopedBufs_split₀ (fun _ : Dev nD => cfgs) 1 c winFacts₀1.arr_unscoped (Ix := Unit) (Name := ℕ) (U := UR sig nD τ) (Lvl := ℕ) (En3 m c)]
      exact sep_mono (split1 (En3 m) c _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, w ≠ 3 → (dat1 (En3 m) c).arrAt w cfg1.N = Ex4 m c (Pipeline.arrRef spec1 w) := fun w hw => by
      have hne : Pipeline.arrRef spec1 w ≠ main_v6 := by
        revert hw; revert w; decide
      exact (((dat1 (En3 m) c).arrAt_in w (by revert hw; revert w; decide) _).trans (A_eq1 (En3 m) c w)).trans (W4_of_ne m c _ hne).symm
    have hjoin : iprop((pdats m 1 c).arrays ((pdats m 1 c).arrAt · cfg1.N) ∗ Pipeline.unscopedRest spec1 c (En3 m c))
        ⊢ (unscopedBufs c (Ex4 m c) : sProp 𝕄) := by
      rw [Pipeline.PerCore.unscopedBufs_split₀ (fun _ : Dev nD => cfgs) 1 c winFacts₀1.arr_unscoped (Ix := Unit) (Name := ℕ) (U := UR sig nD τ) (Lvl := ℕ) (Ex4 m c)]
      refine sep_mono (join1 (En3 m) c _ (Ex4 m c) (hin 0 (by decide)) (hin 1 (by decide)) (hin 2 (by decide)) (W4_out m c).symm) (Entails.of_eq ?_)
      unfold Pipeline.unscopedRest
      exact bigSep_congr fun b hb => by
        rw [show Ex4 m c b = En3 m c b from W4_of_ne m c b fun e => (Finset.mem_sdiff.mp hb).2 (Finset.mem_image.mpr ⟨3, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (Ex6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per pallas_call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (items m) := (main_chain c).trans (by chain_rfl)

set_option backward.isDefEq.respectTransparency.types false in
/-- From any memory with zero counters, every weakly fair execution of @main terminates, nothing faulting, and every final
    state holds the result buffer at the last boundary's contents and the five argument arrays as launched. -/
theorem run : θ_run defs (onTc (τ := τ) (main (F := F))) ⟨m, fun _ => 0, ρ⟩ (fun r => ∀ c : Dev nD,
      r.2.mem ((c.tc : Thread nD τ).loc main_v12) = W7 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ (iprop(Tₙ m c ∗ ∃ W, owes (c : Thread nD τ) (0 : CellTallies nD τ sig Unit) W) : sProp 𝕄)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v12 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Hand

end
-- ==== Proof.Spec.lean ====
/-
  Multi-head self-attention over the extended reals, as ONE family of functions of the five argument arrays:
  the fused q/k/v projection, per head the scaled scores, the row maximum, the exponentials and their row sum,
  the normalized weights, the weighted sum of the values, and the output projection. Both programs are shown to
  compute `out`; everything here is index by index, over literal extents.
-/
import Idealize.ShloMosaic.PureOps.Ideal
import Idealize.ShloMosaic.Lib.ValueIdx

noncomputable section

namespace Cert.Attn

open Idealize.ShloMosaic Idealize.ShloMosaic.ValueIdx

/-- An array over the extended reals of the given extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The value the maximum is folded from: the pattern of -∞. -/
def negInf : EReal := Ideal.ofBits .f32 0xFF800000#32

/-- The score scale 1/8 = 64^(-1/2). -/
def scale : EReal := ((1 / 8 : ℝ) : EReal)

/-- Column of the fused projection that holds part `p` (0 the queries, 1 the keys, 2 the values), head `h`,
    channel `e`: `1024 p + 64 h + e`. -/
def col (p : Fin 3) (h : Fin 16) (e : Fin 64) : Fin 3072 := ⟨p.val * 1024 + h.val * 64 + e.val, by omega⟩

/-- Channel `64 h + e` of the model dimension. -/
def chan (h : Fin 16) (e : Fin 64) : Fin 1024 := ⟨h.val * 64 + e.val, by omega⟩

/-- The fused projection: `qkv[b, n, d] = (∑_c x[b, n, c] · w[d, c]) + bias[d]`. -/
def qkv (x : Arr3 8 1024 1024) (w : Arr2 3072 1024) (bias : Arr1 3072) (b : Fin 8) (n : Fin 1024) (d : Fin 3072) : EReal :=
  (∑ c : Fin 1024, x (ix3 b n c) * w (ix2 d c)) + bias (ix1 d)

section OneHead

/-! One head: queries, keys and values as 1024 rows of 64 channels. -/

variable (q k v : Fin 1024 → Fin 64 → EReal)

/-- Scaled score of query row `i` against key row `j`. -/
def hscore (i j : Fin 1024) : EReal := (∑ e : Fin 64, q i e * k j e) * scale

/-- The row's maximum, folded from -∞. -/
def hmax (i : Fin 1024) : EReal := (Finset.univ : Finset (Fin 1024)).fold max negInf (fun j => hscore q k i j)

/-- The shifted exponential. -/
def hexp (i j : Fin 1024) : EReal := Ideal.exp (hscore q k i j - hmax q k i)

/-- The row's sum of exponentials. -/
def hden (i : Fin 1024) : EReal := ∑ j : Fin 1024, hexp q k i j

/-- The attention weight. -/
def hweight (i j : Fin 1024) : EReal := Ideal.div (hexp q k i j) (hden q k i)

/-- The head's output: the weighted sum of the value rows. -/
def head (i : Fin 1024) (e : Fin 64) : EReal := ∑ j : Fin 1024, hweight q k i j * v j e

end OneHead

/-- Head `h` of batch `b`, its rows read off the fused projection `Q`. -/
def ctx (Q : Fin 8 → Fin 1024 → Fin 3072 → EReal) (b : Fin 8) (h : Fin 16) (i : Fin 1024) (e : Fin 64) : EReal :=
  head (fun i e => Q b i (col 0 h e)) (fun j e => Q b j (col 1 h e)) (fun j e => Q b j (col 2 h e)) i e

/-- The heads' outputs side by side along the model dimension: channel `c` is head `c / 64`, channel `c % 64` of it. -/
def merged (Q : Fin 8 → Fin 1024 → Fin 3072 → EReal) (b : Fin 8) (n : Fin 1024) (c : Fin 1024) : EReal :=
  ctx Q b ⟨c.val / 64, by omega⟩ n ⟨c.val % 64, by omega⟩

/-- The whole layer: `out[b, n, d] = (∑_c merged[b, n, c] · wp[d, c]) + bp[d]`. -/
def out (x : Arr3 8 1024 1024) (w : Arr2 3072 1024) (bias : Arr1 3072) (wp : Arr2 1024 1024) (bp : Arr1 1024) :
    Arr3 8 1024 1024 := fun i =>
  (∑ c : Fin 1024, merged (qkv x w bias) (i 0) (i 1) c * wp (ix2 (i 2) c)) + bp (ix1 (i 2))

end Cert.Attn

end
-- ==== Proof.RefQkv.lean ====
/-
  The reference's fused projection, read index by index over the extended reals: the product of the input with
  the fused weight plus the bias is `qkv`; and the queries, keys and values of one head — the reshape of the
  3072 columns into (part, head, channel), the transpose that brings part, batch and head to the front, the slice of
  one part and the reshape that drops its unit axis — are `qkv` at column `1024 p + 64 h + e`.
-/
import proofs.«137956_j2422361555213_2_alg».proof.Proof.Spec
import proofs.«137956_j2422361555213_2_alg».proof.Proof.Gen.ReferenceIdeal.Read
import Idealize.ShloMosaic.Lib.ValueIdx
import Idealize.ShloMosaic.PureOps.Ideal.Laws

noncomputable section

namespace Cert.Attn.Ref

open Cert.ReferenceIdeal Cert.ReferenceIdeal.Read Idealize.ShloMosaic Idealize.ShloMosaic.ValueIdx Cert.Attn

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal))

/-! ## The index maps at coordinates -/

theorem lidx_v0 (b : Fin 8) (n : Fin 1024) (d : Fin 3072) (k : Fin 1024) :
    lidx_main_v0 (ix3 b n d) k = ix3 b n k :=
  funext fun a => Fin.ext (by match a with | ⟨0, _⟩ => rfl | ⟨1, _⟩ => rfl | ⟨2, _⟩ => rfl)

theorem ridx_v0 (b : Fin 8) (n : Fin 1024) (d : Fin 3072) (k : Fin 1024) :
    ridx_main_v0 (ix3 b n d) k = ix2 d k :=
  funext fun a => Fin.ext (by match a with | ⟨0, _⟩ => rfl | ⟨1, _⟩ => rfl)

theorem idx_v1_v2 (b : Fin 8) (n : Fin 1024) (d : Fin 3072) :
    idx_main_v1 (idx_main_v2 (ix3 b n d)) = ix1 d :=
  funext fun a => Fin.ext (by match a with | ⟨0, _⟩ => rfl)

/-- The fused projection plus its bias, at (b, n, d). -/
theorem v3_at (b : Fin 8) (n : Fin 1024) (d : Fin 3072) :
    val_main_v3 (F := Ideal) x0 x1 x2 (ix3 b n d) = qkv x0 x1 x2 b n d := by
  rw [val_main_v3_apply, val_main_v0_apply, val_main_v2_apply, val_main_v1_apply, idx_v1_v2]
  simp only [lidx_v0, ridx_v0, Ideal.addf_def]
  rfl

/-- Dropping the unit axis in front: the row-major position of (b, h, i, e) among 8·16·1024·64 is that of (0, b, h, i, e). -/
theorem idx_drop_unit (b : Fin 8) (h : Fin 16) (i : Fin 1024) (e : Fin 64) :
    idx_main_v7 (ix4 b h i e) = ix5 (0 : Fin 1) b h i e :=
  funext fun a => Fin.ext (by
    have hb := b.isLt; have hh := h.isLt; have hi := i.isLt; have he := e.isLt
    match a with
    | ⟨0, _⟩ => rfl
    | ⟨1, _⟩ => show (((b.val * 16 + h.val) * 1024 + i.val) * 64 + e.val) / 1048576 % 8 = b.val; omega
    | ⟨2, _⟩ => show (((b.val * 16 + h.val) * 1024 + i.val) * 64 + e.val) / 65536 % 16 = h.val; omega
    | ⟨3, _⟩ => show (((b.val * 16 + h.val) * 1024 + i.val) * 64 + e.val) / 64 % 1024 = i.val; omega
    | ⟨4, _⟩ => show (((b.val * 16 + h.val) * 1024 + i.val) * 64 + e.val) % 64 = e.val; omega)

/-- The slice of part 0, 1, 2 reads the transposed array at that part. -/
theorem idx_slice0 (b : Fin 8) (h : Fin 16) (i : Fin 1024) (e : Fin 64) :
    idx_main_v6 (ix5 (0 : Fin 1) b h i e) = ix5 (0 : Fin 3) b h i e :=
  funext fun a => Fin.ext (by match a with | ⟨0, _⟩ => rfl | ⟨1, _⟩ => rfl | ⟨2, _⟩ => rfl | ⟨3, _⟩ => rfl | ⟨4, _⟩ => rfl)

theorem idx_slice1 (b : Fin 8) (h : Fin 16) (i : Fin 1024) (e : Fin 64) :
    idx_main_v8 (ix5 (0 : Fin 1) b h i e) = ix5 (1 : Fin 3) b h i e :=
  funext fun a => Fin.ext (by match a with | ⟨0, _⟩ => rfl | ⟨1, _⟩ => rfl | ⟨2, _⟩ => rfl | ⟨3, _⟩ => rfl | ⟨4, _⟩ => rfl)

theorem idx_slice2 (b : Fin 8) (h : Fin 16) (i : Fin 1024) (e : Fin 64) :
    idx_main_v10 (ix5 (0 : Fin 1) b h i e) = ix5 (2 : Fin 3) b h i e :=
  funext fun a => Fin.ext (by match a with | ⟨0, _⟩ => rfl | ⟨1, _⟩ => rfl | ⟨2, _⟩ => rfl | ⟨3, _⟩ => rfl | ⟨4, _⟩ => rfl)

/-- The transpose (part, batch, head, row, channel) ← (batch, row, part, head, channel). -/
theorem idx_transpose (p : Fin 3) (b : Fin 8) (h : Fin 16) (i : Fin 1024) (e : Fin 64) :
    idx_main_v5 (ix5 p b h i e) = ix5 b i p h e :=
  funext fun a => Fin.ext (by match a with | ⟨0, _⟩ => rfl | ⟨1, _⟩ => rfl | ⟨2, _⟩ => rfl | ⟨3, _⟩ => rfl | ⟨4, _⟩ => rfl)

/-- The reshape of the 3072 columns into (part, head, channel) is row-major: (p, h, e) is column `1024 p + 64 h + e`. -/
theorem idx_split (b : Fin 8) (i : Fin 1024) (p : Fin 3) (h : Fin 16) (e : Fin 64) :
    idx_main_v4 (ix5 b i p h e) = ix3 b i (col p h e) :=
  funext fun a => Fin.ext (by
    have hb := b.isLt; have hi := i.isLt; have hp := p.isLt; have hh := h.isLt; have he := e.isLt
    match a with
    | ⟨0, _⟩ => show ((((b.val * 1024 + i.val) * 3 + p.val) * 16 + h.val) * 64 + e.val) / 3145728 = b.val; omega
    | ⟨1, _⟩ => show ((((b.val * 1024 + i.val) * 3 + p.val) * 16 + h.val) * 64 + e.val) / 3072 % 1024 = i.val; omega
    | ⟨2, _⟩ => show ((((b.val * 1024 + i.val) * 3 + p.val) * 16 + h.val) * 64 + e.val) % 3072 = p.val * 1024 + h.val * 64 + e.val; omega)

/-- The transposed five-axis array at (p, b, h, i, e) is the fused projection at row (b, i), column `col p h e`. -/
theorem v5_at (p : Fin 3) (b : Fin 8) (h : Fin 16) (i : Fin 1024) (e : Fin 64) :
    val_main_v5 (F := Ideal) x0 x1 x2 (ix5 p b h i e) = qkv x0 x1 x2 b i (col p h e) := by
  rw [val_main_v5_apply, val_main_v4_apply, idx_transpose, idx_split, v3_at]

/-- The queries of head `h` of batch `b`. -/
theorem v7_at (b : Fin 8) (h : Fin 16) (i : Fin 1024) (e : Fin 64) :
    val_main_v7 (F := Ideal) x0 x1 x2 (ix4 b h i e) = qkv x0 x1 x2 b i (col 0 h e) := by
  rw [val_main_v7_apply, val_main_v6_apply, idx_drop_unit, idx_slice0, v5_at]

/-- The keys of head `h` of batch `b`. -/
theorem v9_at (b : Fin 8) (h : Fin 16) (i : Fin 1024) (e : Fin 64) :
    val_main_v9 (F := Ideal) x0 x1 x2 (ix4 b h i e) = qkv x0 x1 x2 b i (col 1 h e) := by
  rw [val_main_v9_apply, val_main_v8_apply, show idx_main_v9 (ix4 b h i e) = ix5 (0 : Fin 1) b h i e from idx_drop_unit b h i e,
    idx_slice1, v5_at]

/-- The values of head `h` of batch `b`. -/
theorem v11_at (b : Fin 8) (h : Fin 16) (i : Fin 1024) (e : Fin 64) :
    val_main_v11 (F := Ideal) x0 x1 x2 (ix4 b h i e) = qkv x0 x1 x2 b i (col 2 h e) := by
  rw [val_main_v11_apply, val_main_v10_apply, show idx_main_v11 (ix4 b h i e) = ix5 (0 : Fin 1) b h i e from idx_drop_unit b h i e,
    idx_slice2, v5_at]

end Cert.Attn.Ref

end
-- ==== Proof.RefLit.lean ====
/-
  The one float literal of the reference whose value matters: the pattern 0x3E000000 denotes 1/8, the score scale.
-/
import proofs.«137956_j2422361555213_2_alg».proof.Proof.Spec
import Idealize.ShloMosaic.PureOps.Ideal

noncomputable section

namespace Cert.Attn.Ref

open Idealize.ShloMosaic Cert.Attn

/-- Sign 0, exponent field 124, fraction 0: `2^23 · 2^(124 - 127 - 23) = 2^(-3)`. -/
theorem scale_eq : Ideal.ofBits .f32 0x3E000000#32 = scale := by
  unfold scale
  simp [Ideal.ofBits, Ideal.ieee, -EReal.coe_mul]; norm_num

end Cert.Attn.Ref

end
-- ==== Proof.RefHead.lean ====
/-
  One head of the reference, read index by index over the extended reals: the scaled scores of the queries against
  the keys, the row maximum folded from -∞ (and the second maximum with -∞, which changes nothing), the shifted
  exponentials, their row sum from 0, the quotient, and the weighted sum of the values — the specification's
  `hscore`, `hmax`, `hexp`, `hden`, `hweight` and `ctx` of the fused projection's rows.
-/
import proofs.«137956_j2422361555213_2_alg».proof.Proof.Spec
import proofs.«137956_j2422361555213_2_alg».proof.Proof.Gen.ReferenceIdeal.Read
import proofs.«137956_j2422361555213_2_alg».proof.Proof.RefQkv
import proofs.«137956_j2422361555213_2_alg».proof.Proof.RefLit
import Idealize.ShloMosaic.Lib.ValueIdx
import Idealize.ShloMosaic.PureOps.Ideal.Laws
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx Cert.Attn

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal))

/-- The query, key and value rows of head `h` of batch `b`: 1024 rows of 64 channels each. -/
abbrev qrow (b : Fin 8) (h : Fin 16) : Fin 1024 → Fin 64 → EReal := fun i e => qkv x0 x1 x2 b i (col 0 h e)
abbrev krow (b : Fin 8) (h : Fin 16) : Fin 1024 → Fin 64 → EReal := fun j e => qkv x0 x1 x2 b j (col 1 h e)
abbrev vrow (b : Fin 8) (h : Fin 16) : Fin 1024 → Fin 64 → EReal := fun j e => qkv x0 x1 x2 b j (col 2 h e)

/-! ## The index maps at coordinates -/

theorem lidx_v12 (b : Fin 8) (h : Fin 16) (i j : Fin 1024) (k : Fin 64) :
    lidx_main_v12 (ix4 b h i j) k = ix4 b h i k :=
  funext fun a => Fin.ext (by match a with | ⟨0, _⟩ => rfl | ⟨1, _⟩ => rfl | ⟨2, _⟩ => rfl | ⟨3, _⟩ => rfl)

theorem ridx_v12 (b : Fin 8) (h : Fin 16) (i j : Fin 1024) (k : Fin 64) :
    ridx_main_v12 (ix4 b h i j) k = ix4 b h j k :=
  funext fun a => Fin.ext (by match a with | ⟨0, _⟩ => rfl | ⟨1, _⟩ => rfl | ⟨2, _⟩ => rfl | ⟨3, _⟩ => rfl)

theorem idx_v18_v19 (b : Fin 8) (h : Fin 16) (i j : Fin 1024) :
    idx_main_v18 (idx_main_v19 (ix4 b h i j)) = ix3 b h i :=
  funext fun a => Fin.ext (by match a with | ⟨0, _⟩ => rfl | ⟨1, _⟩ => rfl | ⟨2, _⟩ => rfl)

theorem idx_v22 (b : Fin 8) (h : Fin 16) (i k : Fin 1024) :
    idx_main_v22 (ix3 b h i) k = ix4 b h i k :=
  funext fun a => Fin.ext (by match a with | ⟨0, _⟩ => rfl | ⟨1, _⟩ => rfl | ⟨2, _⟩ => rfl | ⟨3, _⟩ => rfl)

theorem idx_v23_v24 (b : Fin 8) (h : Fin 16) (i j : Fin 1024) :
    idx_main_v23 (idx_main_v24 (ix4 b h i j)) = ix3 b h i :=
  funext fun a => Fin.ext (by match a with | ⟨0, _⟩ => rfl | ⟨1, _⟩ => rfl | ⟨2, _⟩ => rfl)

theorem lidx_v26 (b : Fin 8) (h : Fin 16) (i : Fin 1024) (e : Fin 64) (k : Fin 1024) :
    lidx_main_v26 (ix4 b h i e) k = ix4 b h i k :=
  funext fun a => Fin.ext (by match a with | ⟨0, _⟩ => rfl | ⟨1, _⟩ => rfl | ⟨2, _⟩ => rfl | ⟨3, _⟩ => rfl)

theorem ridx_v26 (b : Fin 8) (h : Fin 16) (i : Fin 1024) (e : Fin 64) (k : Fin 1024) :
    ridx_main_v26 (ix4 b h i e) k = ix4 b h k e :=
  funext fun a => Fin.ext (by match a with | ⟨0, _⟩ => rfl | ⟨1, _⟩ => rfl | ⟨2, _⟩ => rfl | ⟨3, _⟩ => rfl)

/-- Inserting the coordinate `j` on the last axis of (b, h, i). -/
theorem lift_last (hr : S8x16x1024x1024.Reduces [3] S8x16x1024) (b : Fin 8) (h : Fin 16) (i j : Fin 1024) :
    hr.lift (ix3 b h i) j = ix4 b h i j :=
  funext fun a => Fin.ext (by match a with | ⟨0, _⟩ => rfl | ⟨1, _⟩ => rfl | ⟨2, _⟩ => rfl | ⟨3, _⟩ => rfl)

/-! ## The stages -/

/-- The scaled scores. -/
theorem v14_at (b : Fin 8) (h : Fin 16) (i j : Fin 1024) :
    val_main_v14 (F := Ideal) x0 x1 x2 (ix4 b h i j) = hscore (qrow x0 x1 x2 b h) (krow x0 x1 x2 b h) i j := by
  rw [val_main_v14_apply, val_main_v12_apply, val_main_v13_apply, val_main_cst_apply]
  simp only [lidx_v12, ridx_v12, v7_at, v9_at, Ideal.mulf_def, Ideal.ofBits_def, scale_eq]
  rfl

/-- The row maximum: the fold of `max` from -∞ over the 1024 scores of the row. -/
theorem v15_at (b : Fin 8) (h : Fin 16) (i : Fin 1024) :
    val_main_v15 (F := Ideal) x0 x1 x2 (ix3 b h i) = hmax (qrow x0 x1 x2 b h) (krow x0 x1 x2 b h) i := by
  have hr : S8x16x1024x1024.Reduces [3] S8x16x1024 := by decide
  unfold val_main_v15
  rw [Host.reduce_eq_fold_single _ _ _ reducesTo_S8x16x1024x1024_S8x16x1024_d3 hr h_S_ (ix3 b h i), val_main_cst_0_apply,
    Ideal.ofBits_def]
  unfold hmax negInf
  show Finset.fold max (Ideal.ofBits .f32 0xFF800000#32)
      (fun j : Fin 1024 => val_main_v14 (F := Ideal) x0 x1 x2 (hr.lift (ix3 b h i) j)) Finset.univ = _
  refine Finset.fold_congr (fun j _ => ?_)
  rw [lift_last, v14_at]

/-- -∞ is below the fold that starts from it. -/
theorem negInf_le_hmax (q k : Fin 1024 → Fin 64 → EReal) (i : Fin 1024) : negInf ≤ hmax q k i :=
  (Finset.le_fold_max _).2 (Or.inl le_rfl)

/-- The maximum with the splat of -∞ leaves the row maximum as it is. -/
theorem v17_at (b : Fin 8) (h : Fin 16) (i : Fin 1024) :
    val_main_v17 (F := Ideal) x0 x1 x2 (ix3 b h i) = hmax (qrow x0 x1 x2 b h) (krow x0 x1 x2 b h) i := by
  rw [val_main_v17_apply, val_main_v16_apply, val_main_cst_1_apply, v15_at, Ideal.maximumf_def, Ideal.ofBits_def]
  exact max_eq_right (negInf_le_hmax _ _ i)

/-- The shifted exponentials. -/
theorem v21_at (b : Fin 8) (h : Fin 16) (i j : Fin 1024) :
    val_main_v21 (F := Ideal) x0 x1 x2 (ix4 b h i j) = hexp (qrow x0 x1 x2 b h) (krow x0 x1 x2 b h) i j := by
  rw [val_main_v21_apply, val_main_v20_apply, val_main_v19_apply, val_main_v18_apply, idx_v18_v19, v14_at, v17_at,
    Ideal.hostUnary_exp_def, Ideal.subf_def]
  rfl

/-- The row sum of the exponentials, from 0. -/
theorem v22_at (b : Fin 8) (h : Fin 16) (i : Fin 1024) :
    val_main_v22 (F := Ideal) x0 x1 x2 (ix3 b h i) = hden (qrow x0 x1 x2 b h) (krow x0 x1 x2 b h) i := by
  rw [val_main_v22_apply, val_main_cst_2_apply]
  simp only [Ideal.ofBits_def, Ideal.ofBits_zero_f32, zero_add, idx_v22, v21_at]
  rfl

/-- The attention weights. -/
theorem v25_at (b : Fin 8) (h : Fin 16) (i j : Fin 1024) :
    val_main_v25 (F := Ideal) x0 x1 x2 (ix4 b h i j) = hweight (qrow x0 x1 x2 b h) (krow x0 x1 x2 b h) i j := by
  rw [val_main_v25_apply, val_main_v24_apply, val_main_v23_apply, idx_v23_v24, v21_at, v22_at, Ideal.hostDivf_def]
  rfl

/-- The head's output: the weighted sum of the value rows. -/
theorem v26_at (b : Fin 8) (h : Fin 16) (i : Fin 1024) (e : Fin 64) :
    val_main_v26 (F := Ideal) x0 x1 x2 (ix4 b h i e) = ctx (qkv x0 x1 x2) b h i e := by
  rw [val_main_v26_apply]
  simp only [lidx_v26, ridx_v26, v25_at, v11_at]
  rfl

end Cert.Attn.Ref

end
-- ==== Proof.RefOut.lean ====
/-
  The reference's last stage, read index by index over the extended reals: the heads' outputs transposed back to
  (batch, row, head, channel) and reshaped row-major into 1024 channels are `merged` (channel `c` is head `c / 64`,
  channel `c % 64` of it), and the output projection plus its bias is `out`. So the reference's result is the
  specification.
-/
import proofs.«137956_j2422361555213_2_alg».proof.Proof.Spec
import proofs.«137956_j2422361555213_2_alg».proof.Proof.Gen.ReferenceIdeal.Read
import proofs.«137956_j2422361555213_2_alg».proof.Proof.RefQkv
import proofs.«137956_j2422361555213_2_alg».proof.Proof.RefHead
import Idealize.ShloMosaic.Lib.ValueIdx
import Idealize.ShloMosaic.PureOps.Ideal.Laws

noncomputable section

namespace Cert.Attn.Ref

open Cert.ReferenceIdeal Cert.ReferenceIdeal.Read Idealize.ShloMosaic Idealize.ShloMosaic.ValueIdx Cert.Attn

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The index maps at coordinates -/

/-- Channel `c` of the merged array is channel `c % 64` of head `c / 64`: the reshape is row-major, the transpose swaps
    the row and the head. -/
theorem idx_v27_v28 (b : Fin 8) (n : Fin 1024) (c : Fin 1024) :
    idx_main_v27 (idx_main_v28 (ix3 b n c))
      = ix4 b (⟨c.val / 64, by have := c.isLt; omega⟩ : Fin 16) n (⟨c.val % 64, by omega⟩ : Fin 64) :=
  funext fun a => Fin.ext (by
    have hb := b.isLt; have hn := n.isLt; have hc := c.isLt
    match a with
    | ⟨0, _⟩ => show ((b.val * 1024 + n.val) * 1024 + c.val) / 1048576 = b.val; omega
    | ⟨1, _⟩ => show ((b.val * 1024 + n.val) * 1024 + c.val) / 64 % 16 = c.val / 64; omega
    | ⟨2, _⟩ => show ((b.val * 1024 + n.val) * 1024 + c.val) / 1024 % 1024 = n.val; omega
    | ⟨3, _⟩ => show ((b.val * 1024 + n.val) * 1024 + c.val) % 64 = c.val % 64; omega)

theorem lidx_v29 (b : Fin 8) (n : Fin 1024) (d : Fin 1024) (k : Fin 1024) :
    lidx_main_v29 (ix3 b n d) k = ix3 b n k :=
  funext fun a => Fin.ext (by match a with | ⟨0, _⟩ => rfl | ⟨1, _⟩ => rfl | ⟨2, _⟩ => rfl)

theorem ridx_v29 (b : Fin 8) (n : Fin 1024) (d : Fin 1024) (k : Fin 1024) :
    ridx_main_v29 (ix3 b n d) k = ix2 d k :=
  funext fun a => Fin.ext (by match a with | ⟨0, _⟩ => rfl | ⟨1, _⟩ => rfl)

theorem idx_v30_v31 (b : Fin 8) (n : Fin 1024) (d : Fin 1024) :
    idx_main_v30 (idx_main_v31 (ix3 b n d)) = ix1 d :=
  funext fun a => Fin.ext (by match a with | ⟨0, _⟩ => rfl)

/-! ## The stages -/

/-- The heads' outputs side by side along the model dimension. -/
theorem v28_at (b : Fin 8) (n : Fin 1024) (c : Fin 1024) :
    val_main_v28 (F := Ideal) x0 x1 x2 (ix3 b n c) = merged (qkv x0 x1 x2) b n c := by
  rw [val_main_v28_apply, val_main_v27_apply, idx_v27_v28, v26_at]
  rfl

/-- The output projection plus its bias, at (b, n, d). -/
theorem v32_at (b : Fin 8) (n : Fin 1024) (d : Fin 1024) :
    val_main_v32 (F := Ideal) x0 x1 x2 x3 x4 (ix3 b n d) = out x0 x1 x2 x3 x4 (ix3 b n d) := by
  rw [val_main_v32_apply, val_main_v29_apply, val_main_v31_apply, val_main_v30_apply, idx_v30_v31]
  simp only [lidx_v29, ridx_v29, v28_at, Ideal.addf_def]
  rfl

/-- The reference's result is the specification's `out` of the five argument arrays. -/
theorem result_eq :
    val_main_v32 (F := Ideal) x0 x1 x2 x3 x4 = out x0 x1 x2 x3 x4 := by
  funext i
  obtain ⟨b, n, d, rfl⟩ : ∃ (b : Fin 8) (n : Fin 1024) (d : Fin 1024), i = ix3 b n d := ⟨i 0, i 1, i 2, eq_ix3 i⟩
  exact v32_at x0 x1 x2 x3 x4 b n d

end Cert.Attn.Ref

end
-- ==== Proof.PayLib.lean ====
/-
  What the attention layer's bodies need once they are read at an index: the two halves of a head pair's 128
  columns, the score scale as an extended real, the keepdims column forms of a cast and a broadcast, a row sum
  and a row maximum over the second axis of a square array, a matrix product into a zero accumulator as a plain
  sum over the shared axis, and the one algebraic law: a nonnegative real factor moves out of a sum of products.
-/
import proofs.«137956_j2422361555213_2_alg».proof.Proof.Spec
import proofs.«137956_j2422361555213_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Idealize.ShloMosaic Idealize.ShloMosaic.ValueIdx

/-! ## The two heads of a pair -/

/-- Channel `e` of the pair's first head: column `e` of the 128. -/
def lo (e : Fin 64) : Fin 128 := ⟨e.val, by omega⟩

/-- Channel `e` of the pair's second head: column `64 + e` of the 128. -/
def hi (e : Fin 64) : Fin 128 := ⟨64 + e.val, by omega⟩

/-! ## The score scale -/

/-- The sixteen-bit pattern `0x3E00` (sign 0, exponent 124, significand 0) denotes `2^(124 - 127) = 1/8`. -/
theorem scale_bits : Ideal.ofBits .bf16 0x3E00#16 = scale := by
  unfold scale
  simp [Ideal.ofBits, Ideal.ieee, -EReal.coe_mul]; norm_num

/-! ## The one algebraic law -/

/-- A nonnegative real factor distributes over any finite sum of extended reals: no summand need be finite. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Scaling each query channel before the contraction is scaling the contraction after it. -/
theorem scaled_contraction (q k : Fin 64 → EReal) :
    ∑ e : Fin 64, (q e * scale) * k e = (∑ e : Fin 64, q e * k e) * scale := by
  unfold scale
  rw [mul_comm (∑ e : Fin 64, q e * k e), coe_mul_sum _ _ (by norm_num)]
  exact Finset.sum_congr rfl fun e _ => by rw [mul_comm (q e), mul_assoc]

/-! ## The keepdims column forms -/

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product into the zero accumulator -/

/-- An `[m, k]` array times a `[k, n]` array, contracted over the shared axis into the zero accumulator, reads at
    `(p, q)` the sum over `c` of the left at `(p, c)` times the right at `(c, q)`. The dimension numbers enter through
    what they say of the operand indices: the contracted axes (`hlc`, `hrc`) and the two kept coordinates (`hl0`, `hr1`). -/
theorem matmul_zero_apply {m k n : ℕ} {φ₁ φ₂ : FTy} (d : DotDims ⟨2, ![m, k]⟩ ⟨2, ![k, n]⟩ ⟨2, ![m, n]⟩)
    (hr : d.contr.rank = 1) (hs : d.contr.size ⟨0, by omega⟩ = k)
    (hlc : d.lhsContracting = [⟨1, Nat.one_lt_two⟩]) (hrc : d.rhsContracting = [⟨0, Nat.zero_lt_two⟩])
    (hl0 : ∀ j c, (d.lhsIdx j c ⟨0, Nat.zero_lt_two⟩).val = (j ⟨0, Nat.zero_lt_two⟩).val)
    (hr1 : ∀ j c, (d.rhsIdx j c ⟨1, Nat.one_lt_two⟩).val = (j ⟨1, Nat.one_lt_two⟩).val)
    (A : FVec Ideal ⟨2, ![m, k]⟩ φ₁) (B : FVec Ideal ⟨2, ![k, n]⟩ φ₂) (p : Fin m) (q : Fin n) :
    matmul d none A B (constant ⟨2, ![m, n]⟩ .f32 0x00000000#32) (ix2 p q) = ∑ c : Fin k, A (ix2 p c) * B (ix2 c q) := by
  simp only [matmul]
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact hl0 _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact hr1 _ _)
  rw [el, er]

open Cert.KernelIdeal Cert.KernelIdeal.Gen

/-- The square product of the two projections. -/
theorem matmul_sq_apply {φ₁ φ₂ : FTy} (A : FVec Ideal S1024x1024 φ₁) (B : FVec Ideal S1024x1024 φ₂) (p q : Fin 1024) :
    matmul dot_S1024x1024_S1024x1024_S1024x1024_1_0_0_1_n_n none A B (constant S1024x1024 .f32 0x00000000#32) (ix2 p q)
      = ∑ c : Fin 1024, A (ix2 p c) * B (ix2 c q) :=
  matmul_zero_apply dot_S1024x1024_S1024x1024_S1024x1024_1_0_0_1_n_n rfl rfl rfl rfl
    (fun j c => by
      unfold DotDims.lhsIdx
      rw [dif_neg (show ¬(⟨0, Nat.zero_lt_two⟩ : Fin S1024x1024.rank) ∈ dot_S1024x1024_S1024x1024_S1024x1024_1_0_0_1_n_n.lhsBatch by decide),
        dif_pos (show (⟨0, Nat.zero_lt_two⟩ : Fin S1024x1024.rank) ∈ dot_S1024x1024_S1024x1024_S1024x1024_1_0_0_1_n_n.lhsNonContracting by decide)]
      rfl)
    (fun j c => by
      unfold DotDims.rhsIdx
      rw [dif_neg (show ¬(⟨1, Nat.one_lt_two⟩ : Fin S1024x1024.rank) ∈ dot_S1024x1024_S1024x1024_S1024x1024_1_0_0_1_n_n.rhsBatch by decide),
        dif_pos (show (⟨1, Nat.one_lt_two⟩ : Fin S1024x1024.rank) ∈ dot_S1024x1024_S1024x1024_S1024x1024_1_0_0_1_n_n.rhsNonContracting by decide)]
      rfl) A B p q

/-- Queries times transposed keys: 64 channels contracted into a square array of scores. -/
theorem matmul_qk_apply {φ₁ φ₂ : FTy} (A : FVec Ideal S1024x64 φ₁) (B : FVec Ideal S64x1024 φ₂) (p q : Fin 1024) :
    matmul dot_S1024x64_S64x1024_S1024x1024_1_0_0_1_n_n none A B (constant S1024x1024 .f32 0x00000000#32) (ix2 p q)
      = ∑ c : Fin 64, A (ix2 p c) * B (ix2 c q) :=
  matmul_zero_apply dot_S1024x64_S64x1024_S1024x1024_1_0_0_1_n_n rfl rfl rfl rfl
    (fun j c => by
      unfold DotDims.lhsIdx
      rw [dif_neg (show ¬(⟨0, Nat.zero_lt_two⟩ : Fin S1024x64.rank) ∈ dot_S1024x64_S64x1024_S1024x1024_1_0_0_1_n_n.lhsBatch by decide),
        dif_pos (show (⟨0, Nat.zero_lt_two⟩ : Fin S1024x64.rank) ∈ dot_S1024x64_S64x1024_S1024x1024_1_0_0_1_n_n.lhsNonContracting by decide)]
      rfl)
    (fun j c => by
      unfold DotDims.rhsIdx
      rw [dif_neg (show ¬(⟨1, Nat.one_lt_two⟩ : Fin S64x1024.rank) ∈ dot_S1024x64_S64x1024_S1024x1024_1_0_0_1_n_n.rhsBatch by decide),
        dif_pos (show (⟨1, Nat.one_lt_two⟩ : Fin S64x1024.rank) ∈ dot_S1024x64_S64x1024_S1024x1024_1_0_0_1_n_n.rhsNonContracting by decide)]
      rfl) A B p q

/-- Weights times values: 1024 rows contracted into 64 channels. -/
theorem matmul_wv_apply {φ₁ φ₂ : FTy} (A : FVec Ideal S1024x1024 φ₁) (B : FVec Ideal S1024x64 φ₂) (p : Fin 1024) (q : Fin 64) :
    matmul dot_S1024x1024_S1024x64_S1024x64_1_0_0_1_n_n none A B (constant S1024x64 .f32 0x00000000#32) (ix2 p q)
      = ∑ c : Fin 1024, A (ix2 p c) * B (ix2 c q) :=
  matmul_zero_apply dot_S1024x1024_S1024x64_S1024x64_1_0_0_1_n_n rfl rfl rfl rfl
    (fun j c => by
      unfold DotDims.lhsIdx
      rw [dif_neg (show ¬(⟨0, Nat.zero_lt_two⟩ : Fin S1024x1024.rank) ∈ dot_S1024x1024_S1024x64_S1024x64_1_0_0_1_n_n.lhsBatch by decide),
        dif_pos (show (⟨0, Nat.zero_lt_two⟩ : Fin S1024x1024.rank) ∈ dot_S1024x1024_S1024x64_S1024x64_1_0_0_1_n_n.lhsNonContracting by decide)]
      rfl)
    (fun j c => by
      unfold DotDims.rhsIdx
      rw [dif_neg (show ¬(⟨1, Nat.one_lt_two⟩ : Fin S1024x64.rank) ∈ dot_S1024x1024_S1024x64_S1024x64_1_0_0_1_n_n.rhsBatch by decide),
        dif_pos (show (⟨1, Nat.one_lt_two⟩ : Fin S1024x64.rank) ∈ dot_S1024x1024_S1024x64_S1024x64_1_0_0_1_n_n.rhsNonContracting by decide)]
      rfl) A B p q

/-! ## A row's sum and a row's maximum -/

/-- The sum over the second axis of a square array, read at row `r`: the sum of that row. -/
theorem rowSum_apply (src : FVec Ideal S1024x1024 .f32) (h : S1024x1024.Reduces [1] S1024) (hφ : FKind.Formats .f32)
    (hacc : (0x00000000#32 : BitVec 32) = 0x00000000#32) (r : Fin 1024) :
    multiReduction .add [1] S1024 src 0x00000000#32 h hφ hacc (ix1 r) = ∑ c : Fin 1024, src (ix2 r c) :=
  (Ideal.multiReduction_add_single src 0x00000000#32 h hφ hacc (ix1 r)).trans
    (Finset.sum_congr rfl fun c _ => congrArg src (funext fun a => Fin.ext (by
      match a with
      | ⟨0, _⟩ => rfl
      | ⟨1, _⟩ => rfl)))

/-- The maximum over the second axis of a square array, read at row `r`: the fold of `max` from -∞ over that row. -/
theorem rowMax_apply (src : FVec Ideal S1024x1024 .f32) (h : S1024x1024.Reduces [1] S1024) (hφ : FKind.Formats .f32)
    (hacc : (0xFF800000#32 : BitVec 32) = 0xFF800000#32) (r : Fin 1024) :
    multiReduction .maximumf [1] S1024 src 0xFF800000#32 h hφ hacc (ix1 r)
      = (Finset.univ : Finset (Fin 1024)).fold max negInf (fun c => src (ix2 r c)) := by
  unfold negInf
  refine (Ideal.multiReduction_maximumf_single src 0xFF800000#32 h hφ hacc (ix1 r)).trans ?_
  refine congrArg (fun f => (Finset.univ : Finset (Fin 1024)).fold max (Ideal.ofBits .f32 0xFF800000#32) f)
    (funext fun c => congrArg src (funext fun a => Fin.ext ?_))
  match a with
  | ⟨0, _⟩ => rfl
  | ⟨1, _⟩ => rfl

end Cert.Attn.Pay

end
-- ==== Proof.PayProj.lean ====
/-
  The two projections' bodies read at an index: a matrix product into a zero accumulator plus a bias row that is
  the same for every row of the block. At the extended reals a change of float format is the identity, so the
  narrowing before the product and after the sum leave the value as it is.
-/
import proofs.«137956_j2422361555213_2_alg».proof.Proof.PayLib

noncomputable section

namespace Cert.Attn.Pay

open Idealize.ShloMosaic Idealize.ShloMosaic.ValueIdx Cert.KernelIdeal Cert.KernelIdeal.Gen

/-- The fused q/k/v projection's block at `(p, q)`: row `p` of the activations against column `q` of the weights,
    plus the bias at `q`. -/
theorem proj0_apply (v0 : Vec Ideal S1024x1024 .f32) (v3 : Vec Ideal S1024x1024 .bf16) (v6 : Vec Ideal S1x1024 .f32)
    (p q : Fin 1024) :
    (k0_pay1 (F := Ideal) v0 v3 v6 (ix2 p q) : EReal) = (∑ k : Fin 1024, v0 (ix2 p k) * v3 (ix2 k q)) + v6 (ix2 (0 : Fin 1) q) := by
  unfold k0_pay1
  rw [truncf_apply, addf_apply, matmul_sq_apply, broadcastTo_1b_ab_apply, shapeCast_self, shapeCast_self, shapeCast_self]
  simp only [truncf_apply]

/-- The output projection's block at `(p, q)`: the same sum and bias, with no narrowing around it. -/
theorem proj2_apply (v0 v2 : Vec Ideal S1024x1024 .bf16) (v5 : Vec Ideal S1x1024 .f32) (p q : Fin 1024) :
    (k2_pay1 (F := Ideal) v0 v2 v5 (ix2 p q) : EReal) = (∑ k : Fin 1024, v0 (ix2 p k) * v2 (ix2 k q)) + v5 (ix2 (0 : Fin 1) q) := by
  unfold k2_pay1
  rw [addf_apply, matmul_sq_apply, broadcastTo_1b_ab_apply, shapeCast_self, shapeCast_self, shapeCast_self]

end Cert.Attn.Pay

end
-- ==== Proof.ValHost.lean ====
/-
  The host operations before the first and the last kernel, read index by index over the extended reals: the input
  reshaped to 8192 rows (row `r` is row `r % 1024` of batch `r / 1024`), each weight transposed (its change of float
  format is the identity here), each bias as one row; and the attention kernel's output reshaped to 8192 rows.
-/
import proofs.«137956_j2422361555213_2_alg».proof.Proof.Spec
import proofs.«137956_j2422361555213_2_alg».proof.Proof.Bound
import Idealize.ShloMosaic.Lib.Pipeline.Value
import Idealize.ShloMosaic.Lib.ValueIdx
import Idealize.ShloMosaic.Lib.StableHlo.Run

noncomputable section

namespace Cert.Attn.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Attn

variable (m : (ℓ : Loc nD τ sig) → Buf (Elt Ideal) ℓ) (c : Dev nD)

/-- The five argument arrays as launched, as functions to the extended reals. -/
abbrev X0 : Arr3 8 1024 1024 := m ((c : Thread nD τ).loc main_arg0)
abbrev X1 : Arr2 3072 1024 := m ((c : Thread nD τ).loc main_arg1)
abbrev X2 : Arr1 3072 := m ((c : Thread nD τ).loc main_arg2)
abbrev X3 : Arr2 1024 1024 := m ((c : Thread nD τ).loc main_arg3)
abbrev X4 : Arr1 1024 := m ((c : Thread nD τ).loc main_arg4)

theorem e_v0 : (En1 m c main_v0 : S8192x1024.Idx → EReal)
    = shapeCast S8192x1024 (X0 m c) shapeCasts_S8x1024x1024_S8192x1024 := by
  dsimp only [En1, W1]; after_results; rfl

theorem e_v2 : (En1 m c main_v2 : S1024x3072.Idx → EReal)
    = truncf (F := Ideal) .bf16 (transpose S1024x3072 [1, 0] (X1 m c) transposes_S3072x1024_S1024x3072_1_0) bitsLt_bf16_f32 := by
  dsimp only [En1, W1]; after_results

theorem e_v3 : (En1 m c main_v3 : S1x3072.Idx → EReal)
    = shapeCast S1x3072 (X2 m c) shapeCasts_S3072_S1x3072 := by
  dsimp only [En1, W1]; after_results; rfl

/-- The input rows: row `r` of the 8192 × 1024 array is row `r % 1024` of batch `r / 1024`. -/
theorem v0_at (r : Fin 8192) (k : Fin 1024) (b : Fin 8) (n : Fin 1024) (hr : r.val = b.val * 1024 + n.val) :
    En1 m c main_v0 (ix2 r k) = X0 m c (ix3 b n k) := by
  rw [e_v0]
  exact shapeCast_apply (X0 m c) shapeCasts_S8x1024x1024_S8192x1024 (ix2 r k) (ix3 b n k)
    (by rewrite [Shape.rowMajor_val_three, Shape.rowMajor_val_two]
        show (b.val * 1024 + n.val) * 1024 + k.val = r.val * 1024 + k.val; omega)

/-- The fused weight, transposed (the change of format is the identity over the extended reals). -/
theorem v2_at (k : Fin 1024) (d : Fin 3072) :
    En1 m c main_v2 (ix2 k d) = X1 m c (ix2 d k) := by
  rw [e_v2]
  show transpose S1024x3072 [1, 0] (X1 m c) transposes_S3072x1024_S1024x3072_1_0 (ix2 k d) = _
  exact transpose_apply [1, 0] (X1 m c) transposes_S3072x1024_S1024x3072_1_0 (ix2 k d) (ix2 d k)
    (fun b => match b with | ⟨0, _⟩ => rfl | ⟨1, _⟩ => rfl)

/-- The fused bias as one row. -/
theorem v3_at (z : Fin 1) (d : Fin 3072) :
    En1 m c main_v3 (ix2 z d) = X2 m c (ix1 d) := by
  rw [e_v3]
  exact shapeCast_apply (X2 m c) shapeCasts_S3072_S1x3072 (ix2 z d) (ix1 d)
    (by rewrite [Shape.rowMajor_val_one, Shape.rowMajor_val_two]
        have hz := z.isLt
        show d.val = z.val * 3072 + d.val; omega)

/-- The same, with the batch and the row written as the quotient and the remainder. -/
theorem v0_at' (r : Fin 8192) (k : Fin 1024) :
    En1 m c main_v0 (ix2 r k)
      = X0 m c (ix3 (⟨r.val / 1024, by have := r.isLt; omega⟩ : Fin 8) (⟨r.val % 1024, by omega⟩ : Fin 1024) k) :=
  v0_at m c r k _ _ (by show r.val = r.val / 1024 * 1024 + r.val % 1024; omega)

/-! ## Before the output projection -/

/-- The output projection's weight and bias reach its entry as launched: no host operation writes an argument and
    no kernel has one among its arrays. -/
theorem W4_main_arg3 : W4 m c (Proc.devRef .tc main_arg3) = m ((c : Thread nD τ).loc main_arg3) :=
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl
theorem W4_main_arg4 : W4 m c (Proc.devRef .tc main_arg4) = m ((c : Thread nD τ).loc main_arg4) :=
  (W4_of_ne m c main_arg4 (by decide)).trans <|
  (StableHlo.after_of_writes_sub hostOps1 _ hostOps1_writes (by decide : main_arg4 ∉ hostOps1_W)).trans <|
  (W2_of_ne m c main_arg4 (by decide)).trans <|
  (StableHlo.after_of_writes_sub hostOps0 _ hostOps0_writes (by decide : main_arg4 ∉ hostOps0_W)).trans rfl

theorem e_v7 : (En5 m c main_v7 : S8192x1024.Idx → EReal)
    = shapeCast S8192x1024 (o4 m c : S8x1024x1024.Idx → EReal) shapeCasts_S8x1024x1024_S8192x1024 := by
  dsimp only [En5, W5]; after_results; rw [W4_out]; rfl

theorem e_v9 : (En5 m c main_v9 : S1024x1024.Idx → EReal)
    = truncf (F := Ideal) .bf16 (transpose S1024x1024 [1, 0] (X3 m c) transposes_S1024x1024_S1024x1024_1_0) bitsLt_bf16_f32 := by
  dsimp only [En5, W5]; after_results; rw [W4_main_arg3]

theorem e_v10 : (En5 m c main_v10 : S1x1024.Idx → EReal)
    = shapeCast S1x1024 (X4 m c) shapeCasts_S1024_S1x1024 := by
  dsimp only [En5, W5]; after_results; rw [W4_main_arg4]; rfl

/-- The attention kernel's output as 8192 rows. -/
theorem v7_at (r : Fin 8192) (ch : Fin 1024) (b : Fin 8) (n : Fin 1024) (hr : r.val = b.val * 1024 + n.val) :
    En5 m c main_v7 (ix2 r ch) = o4 m c (ix3 b n ch) := by
  rw [e_v7]
  exact shapeCast_apply (o4 m c : S8x1024x1024.Idx → EReal) shapeCasts_S8x1024x1024_S8192x1024 (ix2 r ch) (ix3 b n ch)
    (by show (S8x1024x1024.rowMajor (ix3 b n ch)).val = (S8192x1024.rowMajor (ix2 r ch)).val
        rewrite [Shape.rowMajor_val_three, Shape.rowMajor_val_two]
        show (b.val * 1024 + n.val) * 1024 + ch.val = r.val * 1024 + ch.val; omega)

/-- The output weight, transposed. -/
theorem v9_at (k : Fin 1024) (d : Fin 1024) :
    En5 m c main_v9 (ix2 k d) = X3 m c (ix2 d k) := by
  rw [e_v9]
  show transpose S1024x1024 [1, 0] (X3 m c) transposes_S1024x1024_S1024x1024_1_0 (ix2 k d) = _
  exact transpose_apply [1, 0] (X3 m c) transposes_S1024x1024_S1024x1024_1_0 (ix2 k d) (ix2 d k)
    (fun b => match b with | ⟨0, _⟩ => rfl | ⟨1, _⟩ => rfl)

/-- The output bias as one row. -/
theorem v10_at (z : Fin 1) (d : Fin 1024) :
    En5 m c main_v10 (ix2 z d) = X4 m c (ix1 d) := by
  rw [e_v10]
  exact shapeCast_apply (X4 m c) shapeCasts_S1024_S1x1024 (ix2 z d) (ix1 d)
    (by rewrite [Shape.rowMajor_val_one, Shape.rowMajor_val_two]
        have hz := z.isLt
        show d.val = z.val * 1024 + d.val; omega)

end Cert.Attn.Val

end
-- ==== Proof.ValProj0.lean ====
/-
  The first kernel's value: its output array, 8192 rows of 3072 columns written back in 8 × 3 blocks of 1024 × 1024,
  ends holding the fused projection `qkv` of the arguments, row `r` being row `r % 1024` of batch `r / 1024`; the
  host reshape after it gives the attention kernel its input as `qkv` at (batch, row, column).
-/
import proofs.«137956_j2422361555213_2_alg».proof.Proof.Spec
import proofs.«137956_j2422361555213_2_alg».proof.Proof.Bound
import proofs.«137956_j2422361555213_2_alg».proof.Proof.PayProj
import proofs.«137956_j2422361555213_2_alg».proof.Proof.ValHost
import Idealize.ShloMosaic.Lib.Pipeline.Value
import Idealize.ShloMosaic.Lib.ValueIdx
import Idealize.ShloMosaic.Lib.StableHlo.Run

noncomputable section

namespace Cert.Attn.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Attn

variable (m : (ℓ : Loc nD τ sig) → Buf (Elt Ideal) ℓ) (c : Dev nD)

theorem hz : (![0, 0] : Fin 2 → Nat) = fun _ => 0 := funext fun a => by fin_cases a <;> rfl

/-- The fused projection at row `r` of the 8192 and column `d`. -/
def qkvRow (r : Fin 8192) (d : Fin 3072) : EReal :=
  qkv (X0 m c) (X1 m c) (X2 m c) (⟨r.val / 1024, by have := r.isLt; omega⟩ : Fin 8) (⟨r.val % 1024, by omega⟩ : Fin 1024) d

/-- What the first kernel's output array ends holding. -/
def G0 : S8192x3072.Idx → EReal := fun i => qkvRow m c (i 0) (i 1)

/-- The printed index maps over the 8 × 3 grid: point `t` is row block `t / 3`, column block `t % 3`; the input rows move
    with the row block, the weight columns and the bias with the column block. -/
theorem idx_facts0 : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

variable (V : (c : Dev nD) → (b : Ref sig .tc) → Buf (Elt Ideal) ((c : Thread nD τ).loc b))

/-- A block of the input rows read at (p, k): the array at block index × 1024 + the coordinate, on each axis. -/
theorem blk0_0 (t : Fin cfg0.N) (p k : Fin 1024) (i : S8192x1024.Idx)
    (h0 : (i 0).val = win0_0.index t (0 : Fin 2) * 1024 + p.val) (h1 : (i 1).val = win0_0.index t (1 : Fin 2) * 1024 + k.val) :
    (iblk0 V c 0 t : Vec Ideal S1024x1024 .f32) (ix2 p k) = (V c main_v0 : S8192x1024.Idx → EReal) i := by
  unfold iblk0
  rw [View.read_apply]
  show (V c main_v0 : S8192x1024.Idx → EReal) _ = V c main_v0 i
  congr 1
  funext a
  apply Fin.ext
  match a with
  | ⟨0, _⟩ => show win0_0.index t (0 : Fin 2) * 1024 + 1 * p.val = (i 0).val; omega
  | ⟨1, _⟩ => show win0_0.index t (1 : Fin 2) * 1024 + 1 * k.val = (i 1).val; omega

/-- A block of the transposed weight read at (k, q). -/
theorem blk0_1 (t : Fin cfg0.N) (k q : Fin 1024) (i : S1024x3072.Idx)
    (h0 : (i 0).val = win0_1.index t (0 : Fin 2) * 1024 + k.val) (h1 : (i 1).val = win0_1.index t (1 : Fin 2) * 1024 + q.val) :
    (iblk0 V c 1 t : Vec Ideal S1024x1024 .bf16) (ix2 k q) = (V c main_v2 : S1024x3072.Idx → EReal) i := by
  unfold iblk0
  rw [View.read_apply]
  show (V c main_v2 : S1024x3072.Idx → EReal) _ = V c main_v2 i
  congr 1
  funext a
  apply Fin.ext
  match a with
  | ⟨0, _⟩ => show win0_1.index t (0 : Fin 2) * 1024 + 1 * k.val = (i 0).val; omega
  | ⟨1, _⟩ => show win0_1.index t (1 : Fin 2) * 1024 + 1 * q.val = (i 1).val; omega

/-- A block of the bias row read at (0, q). -/
theorem blk0_2 (t : Fin cfg0.N) (z : Fin 1) (q : Fin 1024) (i : S1x3072.Idx)
    (h0 : (i 0).val = win0_2.index t (0 : Fin 2) * 1 + z.val) (h1 : (i 1).val = win0_2.index t (1 : Fin 2) * 1024 + q.val) :
    (iblk0 V c 2 t : Vec Ideal S1x1024 .f32) (ix2 z q) = (V c main_v3 : S1x3072.Idx → EReal) i := by
  unfold iblk0
  rw [View.read_apply]
  show (V c main_v3 : S1x3072.Idx → EReal) _ = V c main_v3 i
  congr 1
  funext a
  apply Fin.ext
  match a with
  | ⟨0, _⟩ => show win0_2.index t (0 : Fin 2) * 1 + 1 * z.val = (i 0).val; omega
  | ⟨1, _⟩ => show win0_2.index t (1 : Fin 2) * 1024 + 1 * q.val = (i 1).val; omega

/-- The fused projection at a row written as batch × 1024 + row. -/
theorem qkvRow_eq (r : Fin 8192) (d : Fin 3072) (b : Fin 8) (n : Fin 1024) (hr : r.val = b.val * 1024 + n.val) :
    qkvRow m c r d = qkv (X0 m c) (X1 m c) (X2 m c) b n d := by
  unfold qkvRow
  have hb : r.val / 1024 = b.val := by have := n.isLt; omega
  have hn : r.val % 1024 = n.val := by have := n.isLt; omega
  congr 1
  · exact Fin.ext hb
  · exact Fin.ext hn

/-- WHAT POINT `t` WRITES BACK is block `t` of `G0`: at (p, q) of the block, the product of row `1024 (t / 3) + p` of the
    input with column `1024 (t % 3) + q` of the transposed weight, plus the bias there. -/
theorem flushed0_eq (t : Fin cfg0.N) :
    (dat0 (En1 m) c).flushed 3 t = ((cfg0.win 3).blk t).view.read (Elt Ideal) (G0 m c) := by
  show (cfg0.win 3).cut (grid0.coords t) ((dat0 (En1 m) c).after 3 t) = _
  rw [after0_3]
  unfold out0_3
  rw [View.canon_unit_zero hz]
  simp only [View.ld_unit_zero (S := S1024x1024) hz, View.ld_unit_zero (S := S1x1024) hz]
  obtain ⟨e00, e01, e10, e11, e20, e21, e30, e31⟩ := idx_facts0 t
  have ht : t.val < 24 := lt_of_lt_of_eq t.isLt N_0
  funext j
  show k0_pay1 (F := Ideal) (iblk0 (En1 m) c 0 t) (iblk0 (En1 m) c 1 t) (iblk0 (En1 m) c 2 t) j
    = G0 m c (((cfg0.win 3).blk t).view.emb j)
  obtain ⟨p, q, rfl⟩ : ∃ (p : Fin 1024) (q : Fin 1024), j = ix2 p q := ⟨j 0, j 1, eq_ix2 j⟩
  have hp := p.isLt; have hq := q.isLt
  rw [Pay.proj0_apply]
  have hb0 : ∀ k : Fin 1024, (iblk0 (En1 m) c 0 t : Vec Ideal S1024x1024 .f32) (ix2 p k)
      = X0 m c (ix3 (⟨t.val / 3, by omega⟩ : Fin 8) p k) := fun k =>
    (blk0_0 c (En1 m) t p k (ix2 (⟨t.val / 3 * 1024 + p.val, by omega⟩ : Fin 8192) k)
      (by show t.val / 3 * 1024 + p.val = win0_0.index t (0 : Fin 2) * 1024 + p.val; omega)
      (by show k.val = win0_0.index t (1 : Fin 2) * 1024 + k.val; omega)).trans
      (v0_at m c _ k _ p rfl)
  have hb1 : ∀ k : Fin 1024, (iblk0 (En1 m) c 1 t : Vec Ideal S1024x1024 .bf16) (ix2 k q)
      = X1 m c (ix2 (⟨t.val % 3 * 1024 + q.val, by omega⟩ : Fin 3072) k) := fun k =>
    (blk0_1 c (En1 m) t k q (ix2 k (⟨t.val % 3 * 1024 + q.val, by omega⟩ : Fin 3072))
      (by show k.val = win0_1.index t (0 : Fin 2) * 1024 + k.val; omega)
      (by show t.val % 3 * 1024 + q.val = win0_1.index t (1 : Fin 2) * 1024 + q.val; omega)).trans
      (v2_at m c k _)
  have hb2 : (iblk0 (En1 m) c 2 t : Vec Ideal S1x1024 .f32) (ix2 (0 : Fin 1) q)
      = X2 m c (ix1 (⟨t.val % 3 * 1024 + q.val, by omega⟩ : Fin 3072)) :=
    (blk0_2 c (En1 m) t 0 q (ix2 (0 : Fin 1) (⟨t.val % 3 * 1024 + q.val, by omega⟩ : Fin 3072))
      (by show (0 : Nat) = win0_2.index t (0 : Fin 2) * 1 + 0; omega)
      (by show t.val % 3 * 1024 + q.val = win0_2.index t (1 : Fin 2) * 1024 + q.val; omega)).trans
      (v3_at m c 0 _)
  have hG : G0 m c (((cfg0.win 3).blk t).view.emb (ix2 p q))
      = qkv (X0 m c) (X1 m c) (X2 m c) (⟨t.val / 3, by omega⟩ : Fin 8) p (⟨t.val % 3 * 1024 + q.val, by omega⟩ : Fin 3072) := by
    unfold G0
    refine (qkvRow_eq m c _ _ (⟨t.val / 3, by omega⟩ : Fin 8) p ?_).trans ?_
    · show win0_3.index t (0 : Fin 2) * 1024 + 1 * p.val = t.val / 3 * 1024 + p.val; omega
    · refine congrArg (qkv (X0 m c) (X1 m c) (X2 m c) _ p) (Fin.ext ?_)
      show win0_3.index t (1 : Fin 2) * 1024 + 1 * q.val = t.val % 3 * 1024 + q.val; omega
  rw [hG]
  simp only [hb0, hb1, hb2]
  rfl

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the array is in the block of the point (row block, column block) it falls in. -/
theorem cover0 (i : S8192x3072.Idx) :
    ∃ t : Fin cfg0.N, (cfg0.win 3).flush t = true ∧ i ∈ ((cfg0.win 3).blk t).view.set := by
  have h0 : (i 0).val < 8192 := idx2_lt0 i
  have h1 : (i 1).val < 3072 := idx2_lt1 i
  obtain ⟨t, htv⟩ : ∃ t : Fin cfg0.N, t.val = (i 0).val / 1024 * 3 + (i 1).val / 1024 :=
    ⟨⟨(i 0).val / 1024 * 3 + (i 1).val / 1024, by rw [show cfg0.N = 24 from N_0]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the first kernel: the fused projection, row by row. -/
theorem final0 : (dat0 (En1 m) c).arrAt 3 cfg0.N = G0 m c :=
  (dat0 (En1 m) c).arrAt_eq_of_cover 3 (G0 m c) (fun t _ => flushed0_eq m c t) (cover0)

/-- The first kernel's output array at (r, d). -/
theorem qkv_arr (r : Fin 8192) (d : Fin 3072) :
    W2 m c (Proc.devRef .tc main_v4) (ix2 r d)
      = qkv (X0 m c) (X1 m c) (X2 m c) (⟨r.val / 1024, by have := r.isLt; omega⟩ : Fin 8) (⟨r.val % 1024, by omega⟩ : Fin 1024) d := by
  rw [show W2 m c (Proc.devRef .tc main_v4) = (dat0 (En1 m) c).arrAt 3 cfg0.N from W2_arr m c 3, final0]
  rfl

theorem e_v5 : (En3 m c main_v5 : S8x1024x3072.Idx → EReal)
    = shapeCast S8x1024x3072 (W2 m c (Proc.devRef .tc main_v4) : S8192x3072.Idx → EReal) shapeCasts_S8192x3072_S8x1024x3072 := by
  dsimp only [En3, W3]; after_results; rfl

/-- The attention kernel's input: the fused projection at (batch, row, column). -/
theorem qkv_in (b : Fin 8) (n : Fin 1024) (d : Fin 3072) :
    En3 m c main_v5 (ix3 b n d) = qkv (X0 m c) (X1 m c) (X2 m c) b n d := by
  have hb := b.isLt; have hn := n.isLt
  rw [e_v5, shapeCast_apply (W2 m c (Proc.devRef .tc main_v4) : S8192x3072.Idx → EReal) shapeCasts_S8192x3072_S8x1024x3072
    (ix3 b n d) (ix2 (⟨b.val * 1024 + n.val, by omega⟩ : Fin 8192) d)
    (by show (S8192x3072.rowMajor (ix2 (⟨b.val * 1024 + n.val, by omega⟩ : Fin 8192) d)).val = (S8x1024x3072.rowMajor (ix3 b n d)).val
        rewrite [Shape.rowMajor_val_three, Shape.rowMajor_val_two]
        show (b.val * 1024 + n.val) * 3072 + d.val = (b.val * 1024 + n.val) * 3072 + d.val; rfl)]
  rw [show W2 m c (Proc.devRef .tc main_v4) = (dat0 (En1 m) c).arrAt 3 cfg0.N from W2_arr m c 3, final0]
  exact qkvRow_eq m c _ d b n rfl

end Cert.Attn.Val

end
-- ==== Proof.ValProj2.lean ====
/-
  The last kernel's value, given what the attention kernel left: its output array, 8192 rows of 1024 columns written
  back in 8 row blocks of 1024 × 1024, ends holding the output projection of the merged heads plus its bias, row `r`
  being row `r % 1024` of batch `r / 1024`; the host reshape after it gives the program's result, the specification's `out`.
-/
import proofs.«137956_j2422361555213_2_alg».proof.Proof.Spec
import proofs.«137956_j2422361555213_2_alg».proof.Proof.Bound
import proofs.«137956_j2422361555213_2_alg».proof.Proof.PayProj
import proofs.«137956_j2422361555213_2_alg».proof.Proof.ValHost
import Idealize.ShloMosaic.Lib.Pipeline.Value
import Idealize.ShloMosaic.Lib.ValueIdx
import Idealize.ShloMosaic.Lib.StableHlo.Run

noncomputable section

namespace Cert.Attn.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Attn

variable (m : (ℓ : Loc nD τ sig) → Buf (Elt Ideal) ℓ) (c : Dev nD)

theorem hz2 : (![0, 0] : Fin 2 → Nat) = fun _ => 0 := funext fun a => by fin_cases a <;> rfl

/-- The layer's output at row `r` of the 8192 and column `d`. -/
def outRow (r : Fin 8192) (d : Fin 1024) : EReal :=
  out (X0 m c) (X1 m c) (X2 m c) (X3 m c) (X4 m c)
    (ix3 (⟨r.val / 1024, by have := r.isLt; omega⟩ : Fin 8) (⟨r.val % 1024, by omega⟩ : Fin 1024) d)

/-- What the last kernel's output array ends holding. -/
def G2 : S8192x1024.Idx → EReal := fun i => outRow m c (i 0) (i 1)

/-- The layer's output at a row written as batch × 1024 + row. -/
theorem outRow_eq (r : Fin 8192) (d : Fin 1024) (b : Fin 8) (n : Fin 1024) (hr : r.val = b.val * 1024 + n.val) :
    outRow m c r d = out (X0 m c) (X1 m c) (X2 m c) (X3 m c) (X4 m c) (ix3 b n d) := by
  unfold outRow
  have hb : r.val / 1024 = b.val := by have := n.isLt; omega
  have hn : r.val % 1024 = n.val := by have := n.isLt; omega
  rw [show (⟨r.val / 1024, by have := r.isLt; omega⟩ : Fin 8) = b from Fin.ext hb,
    show (⟨r.val % 1024, by omega⟩ : Fin 1024) = n from Fin.ext hn]

/-- The printed index maps over the 8 × 1 grid: point `t` is row block `t`; the weight and the bias are one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- A block of the merged rows read at (p, k): the array at block index × 1024 + the coordinate, on each axis. -/
theorem blk2_0 (t : Fin cfg2.N) (p k : Fin 1024) (i : S8192x1024.Idx)
    (h0 : (i 0).val = win2_0.index t (0 : Fin 2) * 1024 + p.val) (h1 : (i 1).val = win2_0.index t (1 : Fin 2) * 1024 + k.val) :
    (iblk2 V c 0 t : Vec Ideal S1024x1024 .bf16) (ix2 p k) = (V c main_v7 : S8192x1024.Idx → EReal) i := by
  unfold iblk2
  rw [View.read_apply]
  show (V c main_v7 : S8192x1024.Idx → EReal) _ = V c main_v7 i
  congr 1
  funext a
  apply Fin.ext
  match a with
  | ⟨0, _⟩ => show win2_0.index t (0 : Fin 2) * 1024 + 1 * p.val = (i 0).val; omega
  | ⟨1, _⟩ => show win2_0.index t (1 : Fin 2) * 1024 + 1 * k.val = (i 1).val; omega

/-- The block of the transposed output weight read at (k, q). -/
theorem blk2_1 (t : Fin cfg2.N) (k q : Fin 1024) (i : S1024x1024.Idx)
    (h0 : (i 0).val = win2_1.index t (0 : Fin 2) * 1024 + k.val) (h1 : (i 1).val = win2_1.index t (1 : Fin 2) * 1024 + q.val) :
    (iblk2 V c 1 t : Vec Ideal S1024x1024 .bf16) (ix2 k q) = (V c main_v9 : S1024x1024.Idx → EReal) i := by
  unfold iblk2
  rw [View.read_apply]
  show (V c main_v9 : S1024x1024.Idx → EReal) _ = V c main_v9 i
  congr 1
  funext a
  apply Fin.ext
  match a with
  | ⟨0, _⟩ => show win2_1.index t (0 : Fin 2) * 1024 + 1 * k.val = (i 0).val; omega
  | ⟨1, _⟩ => show win2_1.index t (1 : Fin 2) * 1024 + 1 * q.val = (i 1).val; omega

/-- The block of the bias row read at (0, q). -/
theorem blk2_2 (t : Fin cfg2.N) (z : Fin 1) (q : Fin 1024) (i : S1x1024.Idx)
    (h0 : (i 0).val = win2_2.index t (0 : Fin 2) * 1 + z.val) (h1 : (i 1).val = win2_2.index t (1 : Fin 2) * 1024 + q.val) :
    (iblk2 V c 2 t : Vec Ideal S1x1024 .f32) (ix2 z q) = (V c main_v10 : S1x1024.Idx → EReal) i := by
  unfold iblk2
  rw [View.read_apply]
  show (V c main_v10 : S1x1024.Idx → EReal) _ = V c main_v10 i
  congr 1
  funext a
  apply Fin.ext
  match a with
  | ⟨0, _⟩ => show win2_2.index t (0 : Fin 2) * 1 + 1 * z.val = (i 0).val; omega
  | ⟨1, _⟩ => show win2_2.index t (1 : Fin 2) * 1024 + 1 * q.val = (i 1).val; omega

end Blocks

/-- An index of the array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v11).slice (win2_3.rect t)).set ↔ _
  rw [View.set_slice_whole, Rect.mem_set_unit]
  exact Iff.rfl

/-- Every index of the array is in the block of the row block it falls in. -/
theorem cover2 (i : S8192x1024.Idx) :
    ∃ t : Fin cfg2.N, (cfg2.win 3).flush t = true ∧ i ∈ ((cfg2.win 3).blk t).view.set := by
  have h0 : (i 0).val < 8192 := idx2_lt0 i
  have h1 : (i 1).val < 1024 := idx2_lt1 i
  obtain ⟨t, htv⟩ : ∃ t : Fin cfg2.N, t.val = (i 0).val / 1024 :=
    ⟨⟨(i 0).val / 1024, by rw [show cfg2.N = 8 from N_2]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

theorem e_v12 : (W7 m c (Proc.devRef .tc main_v12) : S8x1024x1024.Idx → EReal)
    = shapeCast S8x1024x1024 (W6 m c (Proc.devRef .tc main_v11) : S8192x1024.Idx → EReal) shapeCasts_S8192x1024_S8x1024x1024 := by
  dsimp only [W7]; after_results; rfl

section Given

-- What the attention kernel left in its output array: the heads' outputs side by side.
variable (hmid : ∀ (b : Fin 8) (n : Fin 1024) (ch : Fin 1024),
  o4 m c (ix3 b n ch) = merged (qkv (X0 m c) (X1 m c) (X2 m c)) b n ch)

include hmid

/-- The last kernel's input rows: row `r` of the 8192 is row `r % 1024` of batch `r / 1024` of the merged heads. -/
theorem v7_merged (r : Fin 8192) (ch : Fin 1024) :
    En5 m c main_v7 (ix2 r ch) = merged (qkv (X0 m c) (X1 m c) (X2 m c))
      (⟨r.val / 1024, by have := r.isLt; omega⟩ : Fin 8) (⟨r.val % 1024, by omega⟩ : Fin 1024) ch :=
  (v7_at m c r ch _ _ (by show r.val = r.val / 1024 * 1024 + r.val % 1024; omega)).trans (hmid _ _ ch)

/-- WHAT POINT `t` WRITES BACK is block `t` of `G2`: at (p, q) of the block, the product of row `p` of batch `t` of the
    merged heads with column `q` of the transposed output weight, plus the bias there. -/
theorem flushed2_eq (t : Fin cfg2.N) :
    (dat2 (En5 m) c).flushed 3 t = ((cfg2.win 3).blk t).view.read (Elt Ideal) (G2 m c) := by
  show (cfg2.win 3).cut (grid2.coords t) ((dat2 (En5 m) c).after 3 t) = _
  rw [after2_3]
  unfold out2_3
  rw [View.canon_unit_zero hz2]
  simp only [View.ld_unit_zero (S := S1024x1024) hz2, View.ld_unit_zero (S := S1x1024) hz2]
  obtain ⟨e00, e01, e10, e11, e20, e21, e30, e31⟩ := idx_facts2 t
  have ht : t.val < 8 := lt_of_lt_of_eq t.isLt N_2
  funext j
  show k2_pay1 (F := Ideal) (iblk2 (En5 m) c 0 t) (iblk2 (En5 m) c 1 t) (iblk2 (En5 m) c 2 t) j
    = G2 m c (((cfg2.win 3).blk t).view.emb j)
  obtain ⟨p, q, rfl⟩ : ∃ (p : Fin 1024) (q : Fin 1024), j = ix2 p q := ⟨j 0, j 1, eq_ix2 j⟩
  have hp := p.isLt; have hq := q.isLt
  rw [Pay.proj2_apply]
  have hb0 : ∀ k : Fin 1024, (iblk2 (En5 m) c 0 t : Vec Ideal S1024x1024 .bf16) (ix2 p k)
      = merged (qkv (X0 m c) (X1 m c) (X2 m c)) (⟨t.val, ht⟩ : Fin 8) p k := fun k =>
    ((blk2_0 c (En5 m) t p k (ix2 (⟨t.val * 1024 + p.val, by omega⟩ : Fin 8192) k)
      (by show t.val * 1024 + p.val = win2_0.index t (0 : Fin 2) * 1024 + p.val; omega)
      (by show k.val = win2_0.index t (1 : Fin 2) * 1024 + k.val; omega)).trans
      (v7_at m c _ k (⟨t.val, ht⟩ : Fin 8) p rfl)).trans (hmid _ p k)
  have hb1 : ∀ k : Fin 1024, (iblk2 (En5 m) c 1 t : Vec Ideal S1024x1024 .bf16) (ix2 k q) = X3 m c (ix2 q k) := fun k =>
    (blk2_1 c (En5 m) t k q (ix2 k q)
      (by show k.val = win2_1.index t (0 : Fin 2) * 1024 + k.val; omega)
      (by show q.val = win2_1.index t (1 : Fin 2) * 1024 + q.val; omega)).trans
      (v9_at m c k q)
  have hb2 : (iblk2 (En5 m) c 2 t : Vec Ideal S1x1024 .f32) (ix2 (0 : Fin 1) q) = X4 m c (ix1 q) :=
    (blk2_2 c (En5 m) t 0 q (ix2 (0 : Fin 1) q)
      (by show (0 : Nat) = win2_2.index t (0 : Fin 2) * 1 + 0; omega)
      (by show q.val = win2_2.index t (1 : Fin 2) * 1024 + q.val; omega)).trans
      (v10_at m c 0 q)
  have hG : G2 m c (((cfg2.win 3).blk t).view.emb (ix2 p q))
      = out (X0 m c) (X1 m c) (X2 m c) (X3 m c) (X4 m c) (ix3 (⟨t.val, ht⟩ : Fin 8) p q) := by
    unfold G2
    refine (outRow_eq m c _ _ (⟨t.val, ht⟩ : Fin 8) p ?_).trans ?_
    · show win2_3.index t (0 : Fin 2) * 1024 + 1 * p.val = t.val * 1024 + p.val; omega
    · refine congrArg (fun d : Fin 1024 => out (X0 m c) (X1 m c) (X2 m c) (X3 m c) (X4 m c) (ix3 (⟨t.val, ht⟩ : Fin 8) p d)) (Fin.ext ?_)
      show win2_3.index t (1 : Fin 2) * 1024 + 1 * q.val = q.val; omega
  rw [hG]
  simp only [hb0, hb1, hb2]
  rfl

/-- THE ARRAY after the last kernel: the layer's output, row by row. -/
theorem final2 : (dat2 (En5 m) c).arrAt 3 cfg2.N = G2 m c :=
  (dat2 (En5 m) c).arrAt_eq_of_cover 3 (G2 m c) (fun t _ => flushed2_eq m c hmid t) (cover2)

/-- THE PROGRAM'S RESULT is the specification's `out` of the five argument arrays. -/
theorem out_val : W7 m c (Proc.devRef .tc main_v12) = out (X0 m c) (X1 m c) (X2 m c) (X3 m c) (X4 m c) := by
  funext i
  obtain ⟨b, n, d, rfl⟩ : ∃ (b : Fin 8) (n : Fin 1024) (d : Fin 1024), i = ix3 b n d := ⟨i 0, i 1, i 2, eq_ix3 i⟩
  have hb := b.isLt; have hn := n.isLt
  rw [e_v12, shapeCast_apply (W6 m c (Proc.devRef .tc main_v11) : S8192x1024.Idx → EReal) shapeCasts_S8192x1024_S8x1024x1024
    (ix3 b n d) (ix2 (⟨b.val * 1024 + n.val, by omega⟩ : Fin 8192) d)
    (by show (S8192x1024.rowMajor (ix2 (⟨b.val * 1024 + n.val, by omega⟩ : Fin 8192) d)).val = (S8x1024x1024.rowMajor (ix3 b n d)).val
        rewrite [Shape.rowMajor_val_three, Shape.rowMajor_val_two]
        show (b.val * 1024 + n.val) * 1024 + d.val = (b.val * 1024 + n.val) * 1024 + d.val; rfl)]
  rw [show W6 m c (Proc.devRef .tc main_v11) = (dat2 (En5 m) c).arrAt 3 cfg2.N from W6_arr m c 3, final2 m c hmid]
  exact outRow_eq m c _ d b n rfl

end Given

end Cert.Attn.Val

end
-- ==== Proof.PayHead.lean ====
/-
  The attention body read at an index. For one head — 1024 query rows, key rows and value rows of 64 channels —
  the body forms the scores (each query channel scaled by 1/8, contracted against the transposed keys), takes each
  row's maximum and the exponentials of the differences, their row sum, the quotient, and contracts the weights
  against the values. Read at `(i, e)` this is the specification's `head`: the only difference is where the factor
  1/8 stands, and a nonnegative real factor moves out of a sum. The two heads of a pair are this chain on columns
  0..63 and on columns 64..127 of the same three blocks.
-/
import proofs.«137956_j2422361555213_2_alg».proof.Proof.PayLib

noncomputable section

namespace Cert.Attn.Pay

open Idealize.ShloMosaic Idealize.ShloMosaic.ValueIdx Cert.KernelIdeal Cert.KernelIdeal.Gen

/-! ## The chain on one head's rows -/

/-- The body's scores: scaled queries against transposed keys, into a zero accumulator. -/
def kscore (qs ks : FVec Ideal S1024x64 .bf16) : FVec Ideal S1024x1024 .f32 :=
  matmul dot_S1024x64_S64x1024_S1024x1024_1_0_0_1_n_n none
    (mulf qs (broadcast S1024x64 (Scalar.ofBits .bf16 0x3E00#16)))
    (transpose S64x1024 [1, 0] ks transposes_S1024x64_p1_0_S64x1024)
    (constant S1024x1024 .f32 0x00000000#32)

/-- The body's exponentials: each score less its row's maximum, exponentiated. -/
def kexp (s : FVec Ideal S1024x1024 .f32) : FVec Ideal S1024x1024 .f32 :=
  exp (subf s (broadcastTo S1024x1024
    (shapeCast S1024x1 (multiReduction .maximumf [1] S1024 s 0xFF800000#32 reduces_S1024x1024_S1024 (.inl rfl) rfl)
      shapeCasts_S1024_S1024x1) broadcasts_S1024x1_S1024x1024))

/-- The body's weights: each exponential over its row's sum. -/
def kweight (s : FVec Ideal S1024x1024 .f32) : FVec Ideal S1024x1024 .f32 :=
  divf (kexp s) (broadcastTo S1024x1024
    (shapeCast S1024x1 (multiReduction .add [1] S1024 (kexp s) 0x00000000#32 reduces_S1024x1024_S1024 (.inl rfl) rfl)
      shapeCasts_S1024_S1024x1) broadcasts_S1024x1_S1024x1024)

/-- The scores at `(i, j)` are the specification's: the factor 1/8 leaves the sum over the channels. -/
theorem kscore_apply (qs ks : FVec Ideal S1024x64 .bf16) (i j : Fin 1024) :
    kscore qs ks (ix2 i j) = hscore (fun i e => qs (ix2 i e)) (fun j e => ks (ix2 j e)) i j := by
  unfold kscore hscore
  rw [matmul_qk_apply]
  have ht : ∀ e : Fin 64, transpose S64x1024 [1, 0] ks transposes_S1024x64_p1_0_S64x1024 (ix2 e j) = ks (ix2 j e) :=
    fun e => transpose_ix2_apply ks transposes_S1024x64_p1_0_S64x1024 e j
  simp only [mulf_apply, broadcast_apply, ht, Ideal.ofBits_def, scale_bits]
  exact scaled_contraction (fun e => qs (ix2 i e)) (fun e => ks (ix2 j e))

/-- The exponentials at `(i, j)`. -/
theorem kexp_apply (s : FVec Ideal S1024x1024 .f32) (i j : Fin 1024) :
    kexp s (ix2 i j)
      = Ideal.exp (s (ix2 i j) - (Finset.univ : Finset (Fin 1024)).fold max negInf (fun c => s (ix2 i c))) := by
  unfold kexp
  show Ideal.exp (subf s _ (ix2 i j)) = _
  rw [subf_apply, broadcastTo_a1_ab_apply, shapeCast_a_a1_apply, rowMax_apply]

/-- The weights at `(i, j)`. -/
theorem kweight_apply (s : FVec Ideal S1024x1024 .f32) (i j : Fin 1024) :
    kweight s (ix2 i j) = Ideal.div (kexp s (ix2 i j)) (∑ c : Fin 1024, kexp s (ix2 i c)) := by
  unfold kweight
  rw [divf_apply, broadcastTo_a1_ab_apply, shapeCast_a_a1_apply, rowSum_apply]

/-- The weights of the scores are the specification's weights. -/
theorem kweight_kscore_apply (qs ks : FVec Ideal S1024x64 .bf16) (i j : Fin 1024) :
    kweight (kscore qs ks) (ix2 i j) = hweight (fun i e => qs (ix2 i e)) (fun j e => ks (ix2 j e)) i j := by
  have hexp_eq : ∀ c : Fin 1024, kexp (kscore qs ks) (ix2 i c)
      = hexp (fun i e => qs (ix2 i e)) (fun j e => ks (ix2 j e)) i c := fun c => by
    rw [kexp_apply]
    simp only [kscore_apply]
    rfl
  rw [kweight_apply]
  simp only [hexp_eq]
  rfl

/-- The head's output at `(i, e)`: the weights, narrowed to the values' format (the identity), against the values. -/
theorem khead_apply (qs ks vs : FVec Ideal S1024x64 .bf16) (i : Fin 1024) (e : Fin 64) :
    matmul dot_S1024x1024_S1024x64_S1024x64_1_0_0_1_n_n none (truncf .bf16 (kweight (kscore qs ks)) bitsLt_bf16_f32) vs
        (constant S1024x64 .f32 0x00000000#32) (ix2 i e)
      = head (fun i e => qs (ix2 i e)) (fun j e => ks (ix2 j e)) (fun j e => vs (ix2 j e)) i e := by
  rw [matmul_wv_apply]
  unfold head
  exact Finset.sum_congr rfl fun j _ => by rw [truncf_apply, kweight_kscore_apply]

/-- The head depends on its three arrays only through their elements. -/
theorem head_congr {q q' k k' v v' : Fin 1024 → Fin 64 → EReal} (hq : ∀ a b, q a b = q' a b) (hk : ∀ a b, k a b = k' a b)
    (hv : ∀ a b, v a b = v' a b) (i : Fin 1024) (e : Fin 64) : head q k v i e = head q' k' v' i e := by
  obtain rfl : q = q' := funext fun a => funext (hq a)
  obtain rfl : k = k' := funext fun a => funext (hk a)
  obtain rfl : v = v' := funext fun a => funext (hv a)
  rfl

/-! ## The two heads' rows, read off the three blocks -/

/-- Columns 0..63 of a block with its unit axis dropped. -/
theorem slice_lo_apply (v : Vec Ideal S1x1024x128 .bf16) (i : Fin 1024) (e : Fin 64) :
    extractStridedSlice S1024x64 ![0, 0] (shapeCast S1024x128 v shapeCasts_S1x1024x128_S1024x128)
        slices_S1024x128_o0_0_S1024x64 (ix2 i e) = v (ix3 (0 : Fin 1) i (lo e)) :=
  (slice2_axis1_apply 0 _ slices_S1024x128_o0_0_S1024x64 i e (lo e) (by show e.val = 0 + e.val; omega)).trans
    (shapeCast_1ab_ab_apply v shapeCasts_S1x1024x128_S1024x128 i (lo e))

/-- Columns 64..127 of a block with its unit axis dropped. -/
theorem slice_hi_apply (v : Vec Ideal S1x1024x128 .bf16) (i : Fin 1024) (e : Fin 64) :
    extractStridedSlice S1024x64 ![0, 64] (shapeCast S1024x128 v shapeCasts_S1x1024x128_S1024x128)
        slices_S1024x128_o0_64_S1024x64 (ix2 i e) = v (ix3 (0 : Fin 1) i (hi e)) :=
  (slice2_axis1_apply 64 _ slices_S1024x128_o0_64_S1024x64 i e (hi e) rfl).trans
    (shapeCast_1ab_ab_apply v shapeCasts_S1x1024x128_S1024x128 i (hi e))

/-! ## The two stored pieces -/

/-- The first stored piece at `(0, i, e)` is the first head of the pair. -/
theorem head0_apply (v0 v2 v4 : Vec Ideal S1x1024x128 .bf16) (i : Fin 1024) (e : Fin 64) :
    (k1_pay1 (F := Ideal) (k1_pay6 v0 v2 v4) (ix3 (0 : Fin 1) i e) : EReal)
      = head (fun i e => v0 (ix3 (0 : Fin 1) i (lo e))) (fun j e => v2 (ix3 (0 : Fin 1) j (lo e)))
          (fun j e => v4 (ix3 (0 : Fin 1) j (lo e))) i e := by
  unfold k1_pay1
  rw [shapeCast_ab_1ab_apply, truncf_apply]
  show matmul dot_S1024x1024_S1024x64_S1024x64_1_0_0_1_n_n none
      (truncf .bf16 (kweight (kscore
        (extractStridedSlice S1024x64 ![0, 0] (shapeCast S1024x128 v0 shapeCasts_S1x1024x128_S1024x128) slices_S1024x128_o0_0_S1024x64)
        (extractStridedSlice S1024x64 ![0, 0] (shapeCast S1024x128 v2 shapeCasts_S1x1024x128_S1024x128) slices_S1024x128_o0_0_S1024x64)))
        bitsLt_bf16_f32)
      (extractStridedSlice S1024x64 ![0, 0] (shapeCast S1024x128 v4 shapeCasts_S1x1024x128_S1024x128) slices_S1024x128_o0_0_S1024x64)
      (constant S1024x64 .f32 0x00000000#32) (ix2 i e) = _
  exact (khead_apply _ _ _ i e).trans (head_congr (slice_lo_apply v0) (slice_lo_apply v2) (slice_lo_apply v4) i e)

/-- The second stored piece at `(0, i, e)` is the second head of the pair. -/
theorem head1_apply (v0 v2 v4 : Vec Ideal S1x1024x128 .bf16) (i : Fin 1024) (e : Fin 64) :
    (k1_pay2 (F := Ideal) (k1_pay7 v4) (k1_pay8 v0 v2) (ix3 (0 : Fin 1) i e) : EReal)
      = head (fun i e => v0 (ix3 (0 : Fin 1) i (hi e))) (fun j e => v2 (ix3 (0 : Fin 1) j (hi e)))
          (fun j e => v4 (ix3 (0 : Fin 1) j (hi e))) i e := by
  unfold k1_pay2
  rw [shapeCast_ab_1ab_apply, truncf_apply]
  show matmul dot_S1024x1024_S1024x64_S1024x64_1_0_0_1_n_n none
      (truncf .bf16 (kweight (kscore
        (extractStridedSlice S1024x64 ![0, 64] (shapeCast S1024x128 v0 shapeCasts_S1x1024x128_S1024x128) slices_S1024x128_o0_64_S1024x64)
        (extractStridedSlice S1024x64 ![0, 64] (shapeCast S1024x128 v2 shapeCasts_S1x1024x128_S1024x128) slices_S1024x128_o0_64_S1024x64)))
        bitsLt_bf16_f32)
      (extractStridedSlice S1024x64 ![0, 64] (shapeCast S1024x128 v4 shapeCasts_S1x1024x128_S1024x128) slices_S1024x128_o0_64_S1024x64)
      (constant S1024x64 .f32 0x00000000#32) (ix2 i e) = _
  exact (khead_apply _ _ _ i e).trans (head_congr (slice_hi_apply v0) (slice_hi_apply v2) (slice_hi_apply v4) i e)

end Cert.Attn.Pay

end
-- ==== Proof.ValMid.lean ====
/-
  What the attention region leaves in its output array. The grid has 64 points, one per batch `b` and head pair
  `hp` (point `8 b + hp`). At a point the three input windows hold, of the fused projection of batch `b`, columns
  `128 hp ..`, `1024 + 128 hp ..` and `2048 + 128 hp ..`: the queries, keys and values of heads `2 hp` and `2 hp + 1`.
  The body's two stores tile the output block, the first head on its first 64 columns and the second on its last
  64; each is the specification's `head` of its column family. The 64 output blocks tile the output array, so it
  ends holding, at `(b, n, ch)`, head `ch / 64` at row `n` and channel `ch % 64`.
-/
import proofs.«137956_j2422361555213_2_alg».proof.Proof.Bound
import proofs.«137956_j2422361555213_2_alg».proof.Proof.Spec
import proofs.«137956_j2422361555213_2_alg».proof.Proof.PayHead
import Idealize.ShloMosaic.Lib.Pipeline.Value
import Idealize.ShloMosaic.Lib.ValueIdx

noncomputable section

namespace Cert.Attn.Val

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)
open Cert.Attn Cert.Attn.Pay

/-! ## Where each window's block sits, at every point -/

theorem hz3 : (![0, 0, 0] : Fin 3 → Nat) = fun _ => 0 := funext fun a => by fin_cases a <;> rfl

/-- The printed index maps, decided over the grid: point `t` is batch `t / 8` and head pair `t % 8`; the queries',
    keys' and values' blocks are the pair's columns in the three thirds of the fused projection. -/
theorem idx_facts : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = 8 + t.val % 8
    ∧ win1_2.index t (0 : Fin 3) = t.val / 8 ∧ win1_2.index t (1 : Fin 3) = 0 ∧ win1_2.index t (2 : Fin 3) = 16 + t.val % 8
    ∧ win1_3.index t (0 : Fin 3) = t.val / 8 ∧ win1_3.index t (1 : Fin 3) = 0 ∧ win1_3.index t (2 : Fin 3) = t.val % 8 :=
  (by decide +kernel : ∀ t : Fin grid1.N, _)

/-! ## The output block as one function of the three input blocks -/

/-- What the body leaves at `(·, i, j)` of the output block: on the first 64 columns the head of the blocks' first 64
    columns, on the last 64 the head of their last 64. -/
def blockOut (X0 X1 X2 : Vec Ideal S1x1024x128 .bf16) : Vec Ideal S1x1024x128 .bf16 := fun y =>
  if h : (y 2).val < 64 then
    head (fun i e => X0 (ix3 (0 : Fin 1) i (lo e))) (fun j e => X1 (ix3 (0 : Fin 1) j (lo e)))
      (fun j e => X2 (ix3 (0 : Fin 1) j (lo e))) (y 1) ⟨(y 2).val, h⟩
  else
    head (fun i e => X0 (ix3 (0 : Fin 1) i (hi e))) (fun j e => X1 (ix3 (0 : Fin 1) j (hi e)))
      (fun j e => X2 (ix3 (0 : Fin 1) j (hi e))) (y 1)
      ⟨(y 2).val - 64, by have h2 : (y 2).val < 128 := (y 2).isLt; omega⟩

/-- The two stores tile the block and each stores its half of `blockOut`. -/
theorem out1_3_eq (X0 X1 X2 : Vec Ideal S1x1024x128 .bf16) : out1_3 X0 X1 X2 = blockOut X0 X1 X2 := by
  funext y
  unfold out1_3
  simp only [View.ld_unit_zero (S := S1x1024x128) hz3]
  refine View.canon_apply_of_pieces (Val := Elt Ideal) (blockOut X0 X1 X2) _ ?_ y (cover1_3 _ _ y)
  intro p hp
  rcases List.mem_cons.mp hp with rfl | hp
  · intro (x : S1x1024x64.Idx)
    obtain ⟨u, i, e, rfl⟩ : ∃ (u : Fin 1) (i : Fin 1024) (e : Fin 64), x = ix3 u i e := ⟨x 0, x 1, x 2, eq_ix3 x⟩
    obtain rfl : u = 0 := Subsingleton.elim _ _
    show (k1_pay2 (F := Ideal) (k1_pay7 X2) (k1_pay8 X0 X1) (ix3 (0 : Fin 1) i e) : EReal)
      = blockOut X0 X1 X2 (r1_hi.emb (ix3 (0 : Fin 1) i e))
    rw [head1_apply]
    unfold blockOut
    rw [dif_neg (show ¬ ((r1_hi.emb (ix3 (0 : Fin 1) i e)) 2).val < 64 by show ¬ (64 + 1 * e.val < 64); omega)]
    exact congrArg₂ (head _ _ _) (Fin.ext (by show i.val = 0 + 1 * i.val; omega))
      (Fin.ext (by show e.val = 64 + 1 * e.val - 64; omega))
  · rcases List.mem_cons.mp hp with rfl | hp
    · intro (x : S1x1024x64.Idx)
      obtain ⟨u, i, e, rfl⟩ : ∃ (u : Fin 1) (i : Fin 1024) (e : Fin 64), x = ix3 u i e := ⟨x 0, x 1, x 2, eq_ix3 x⟩
      obtain rfl : u = 0 := Subsingleton.elim _ _
      show (k1_pay1 (F := Ideal) (k1_pay6 X0 X1 X2) (ix3 (0 : Fin 1) i e) : EReal)
        = blockOut X0 X1 X2 (r1_lo.emb (ix3 (0 : Fin 1) i e))
      rw [head0_apply]
      unfold blockOut
      rw [dif_pos (show ((r1_lo.emb (ix3 (0 : Fin 1) i e)) 2).val < 64 by
        show 0 + 1 * e.val < 64; have := e.isLt; omega)]
      exact congrArg₂ (head _ _ _) (Fin.ext (by show i.val = 0 + 1 * i.val; omega))
        (Fin.ext (by show e.val = 0 + 1 * e.val; omega))
    · exact absurd hp List.not_mem_nil

/-! ## The input blocks as elements of the fused projection -/

/-- The queries' block at point `t`, at `(·, i, j)`: batch `t / 8`, row `i`, column `128 (t % 8) + j` of the fused projection. -/
theorem iblk0_apply (m : (ℓ : Loc nD τ sig) → Buf (Elt Ideal) ℓ) (c : Dev nD) (Q : Fin 8 → Fin 1024 → Fin 3072 → EReal)
    (hin : ∀ (b : Fin 8) (n : Fin 1024) (d : Fin 3072), En3 m c main_v5 (ix3 b n d) = Q b n d)
    (t : Fin cfg1.N) (i : Fin 1024) (j : Fin 128) (hb : t.val / 8 < 8) (hd : 128 * (t.val % 8) + j.val < 3072) :
    (iblk1 (En3 m) c 0 t : Vec Ideal S1x1024x128 .bf16) (ix3 (0 : Fin 1) i j)
      = Q ⟨t.val / 8, hb⟩ i ⟨128 * (t.val % 8) + j.val, hd⟩ := by
  obtain ⟨e00, e01, e02, e10, e11, e12, e20, e21, e22, e30, e31, e32⟩ := idx_facts t
  have key : ((cfg1.win 0).blk t).view.emb (ix3 (0 : Fin 1) i j)
      = (ix3 (⟨t.val / 8, hb⟩ : Fin 8) i (⟨128 * (t.val % 8) + j.val, hd⟩ : Fin 3072) : S8x1024x3072.Idx) := by
    funext a; apply Fin.ext
    match a with
    | ⟨0, _⟩ => show win1_0.index t (0 : Fin 3) * 1 + 1 * 0 = t.val / 8; omega
    | ⟨1, _⟩ => show win1_0.index t (1 : Fin 3) * 1024 + 1 * i.val = i.val; omega
    | ⟨2, _⟩ => show win1_0.index t (2 : Fin 3) * 128 + 1 * j.val = 128 * (t.val % 8) + j.val; omega
  unfold iblk1
  rw [View.read_apply]
  show En3 m c main_v5 (((cfg1.win 0).blk t).view.emb (ix3 (0 : Fin 1) i j)) = _
  rw [key]
  exact hin _ _ _

/-- The keys' block at point `t`, at `(·, i, j)`: batch `t / 8`, row `i`, column `1024 + 128 (t % 8) + j` of the fused projection. -/
theorem iblk1_apply (m : (ℓ : Loc nD τ sig) → Buf (Elt Ideal) ℓ) (c : Dev nD) (Q : Fin 8 → Fin 1024 → Fin 3072 → EReal)
    (hin : ∀ (b : Fin 8) (n : Fin 1024) (d : Fin 3072), En3 m c main_v5 (ix3 b n d) = Q b n d)
    (t : Fin cfg1.N) (i : Fin 1024) (j : Fin 128) (hb : t.val / 8 < 8) (hd : 1024 + 128 * (t.val % 8) + j.val < 3072) :
    (iblk1 (En3 m) c 1 t : Vec Ideal S1x1024x128 .bf16) (ix3 (0 : Fin 1) i j)
      = Q ⟨t.val / 8, hb⟩ i ⟨1024 + 128 * (t.val % 8) + j.val, hd⟩ := by
  obtain ⟨e00, e01, e02, e10, e11, e12, e20, e21, e22, e30, e31, e32⟩ := idx_facts t
  have key : ((cfg1.win 1).blk t).view.emb (ix3 (0 : Fin 1) i j)
      = (ix3 (⟨t.val / 8, hb⟩ : Fin 8) i (⟨1024 + 128 * (t.val % 8) + j.val, hd⟩ : Fin 3072) : S8x1024x3072.Idx) := by
    funext a; apply Fin.ext
    match a with
    | ⟨0, _⟩ => show win1_1.index t (0 : Fin 3) * 1 + 1 * 0 = t.val / 8; omega
    | ⟨1, _⟩ => show win1_1.index t (1 : Fin 3) * 1024 + 1 * i.val = i.val; omega
    | ⟨2, _⟩ => show win1_1.index t (2 : Fin 3) * 128 + 1 * j.val = 1024 + 128 * (t.val % 8) + j.val; omega
  unfold iblk1
  rw [View.read_apply]
  show En3 m c main_v5 (((cfg1.win 1).blk t).view.emb (ix3 (0 : Fin 1) i j)) = _
  rw [key]
  exact hin _ _ _

/-- The values' block at point `t`, at `(·, i, j)`: batch `t / 8`, row `i`, column `2048 + 128 (t % 8) + j` of the fused projection. -/
theorem iblk2_apply (m : (ℓ : Loc nD τ sig) → Buf (Elt Ideal) ℓ) (c : Dev nD) (Q : Fin 8 → Fin 1024 → Fin 3072 → EReal)
    (hin : ∀ (b : Fin 8) (n : Fin 1024) (d : Fin 3072), En3 m c main_v5 (ix3 b n d) = Q b n d)
    (t : Fin cfg1.N) (i : Fin 1024) (j : Fin 128) (hb : t.val / 8 < 8) (hd : 2048 + 128 * (t.val % 8) + j.val < 3072) :
    (iblk1 (En3 m) c 2 t : Vec Ideal S1x1024x128 .bf16) (ix3 (0 : Fin 1) i j)
      = Q ⟨t.val / 8, hb⟩ i ⟨2048 + 128 * (t.val % 8) + j.val, hd⟩ := by
  obtain ⟨e00, e01, e02, e10, e11, e12, e20, e21, e22, e30, e31, e32⟩ := idx_facts t
  have key : ((cfg1.win 2).blk t).view.emb (ix3 (0 : Fin 1) i j)
      = (ix3 (⟨t.val / 8, hb⟩ : Fin 8) i (⟨2048 + 128 * (t.val % 8) + j.val, hd⟩ : Fin 3072) : S8x1024x3072.Idx) := by
    funext a; apply Fin.ext
    match a with
    | ⟨0, _⟩ => show win1_2.index t (0 : Fin 3) * 1 + 1 * 0 = t.val / 8; omega
    | ⟨1, _⟩ => show win1_2.index t (1 : Fin 3) * 1024 + 1 * i.val = i.val; omega
    | ⟨2, _⟩ => show win1_2.index t (2 : Fin 3) * 128 + 1 * j.val = 2048 + 128 * (t.val % 8) + j.val; omega
  unfold iblk1
  rw [View.read_apply]
  show En3 m c main_v5 (((cfg1.win 2).blk t).view.emb (ix3 (0 : Fin 1) i j)) = _
  rw [key]
  exact hin _ _ _

/-! ## The output block is the specification's merged heads -/

/-- If the three blocks are, of batch `bb`, the columns `128 k ..` of the three thirds of `Q`, the output block at
    `(·, i, j)` is the merged heads at column `128 k + j`: head `2 k` on the first 64 columns, head `2 k + 1` on the last. -/
theorem blockOut_eq_merged (X0 X1 X2 : Vec Ideal S1x1024x128 .bf16) (Q : Fin 8 → Fin 1024 → Fin 3072 → EReal)
    (bb : Fin 8) (k : ℕ) (hk : k < 8)
    (h0 : ∀ (a : Fin 1024) (j : Fin 128), X0 (ix3 (0 : Fin 1) a j) = Q bb a ⟨128 * k + j.val, by have := j.isLt; omega⟩)
    (h1 : ∀ (a : Fin 1024) (j : Fin 128), X1 (ix3 (0 : Fin 1) a j) = Q bb a ⟨1024 + 128 * k + j.val, by have := j.isLt; omega⟩)
    (h2 : ∀ (a : Fin 1024) (j : Fin 128), X2 (ix3 (0 : Fin 1) a j) = Q bb a ⟨2048 + 128 * k + j.val, by have := j.isLt; omega⟩)
    (i : Fin 1024) (j : Fin 128) :
    blockOut X0 X1 X2 (ix3 (0 : Fin 1) i j) = merged Q bb i ⟨128 * k + j.val, by have := j.isLt; omega⟩ := by
  have hj128 : j.val < 128 := j.isLt
  unfold blockOut merged ctx
  by_cases hj : j.val < 64
  · rw [dif_pos (show ((ix3 (0 : Fin 1) i j) 2).val < 64 from hj)]
    refine (head_congr
      (fun a b => (h0 a (lo b)).trans (congrArg (Q bb a) (Fin.ext ?_)))
      (fun a b => (h1 a (lo b)).trans (congrArg (Q bb a) (Fin.ext ?_)))
      (fun a b => (h2 a (lo b)).trans (congrArg (Q bb a) (Fin.ext ?_))) _ _).trans
      (congrArg (head _ _ _ _) (Fin.ext ?_))
    · show 128 * k + b.val = 0 * 1024 + (128 * k + j.val) / 64 * 64 + b.val; omega
    · show 1024 + 128 * k + b.val = 1 * 1024 + (128 * k + j.val) / 64 * 64 + b.val; omega
    · show 2048 + 128 * k + b.val = 2 * 1024 + (128 * k + j.val) / 64 * 64 + b.val; omega
    · show j.val = (128 * k + j.val) % 64; omega
  · rw [dif_neg (show ¬ ((ix3 (0 : Fin 1) i j) 2).val < 64 from hj)]
    refine (head_congr
      (fun a b => (h0 a (hi b)).trans (congrArg (Q bb a) (Fin.ext ?_)))
      (fun a b => (h1 a (hi b)).trans (congrArg (Q bb a) (Fin.ext ?_)))
      (fun a b => (h2 a (hi b)).trans (congrArg (Q bb a) (Fin.ext ?_))) _ _).trans
      (congrArg (head _ _ _ _) (Fin.ext ?_))
    · show 128 * k + (64 + b.val) = 0 * 1024 + (128 * k + j.val) / 64 * 64 + b.val; omega
    · show 1024 + 128 * k + (64 + b.val) = 1 * 1024 + (128 * k + j.val) / 64 * 64 + b.val; omega
    · show 2048 + 128 * k + (64 + b.val) = 2 * 1024 + (128 * k + j.val) / 64 * 64 + b.val; omega
    · show j.val - 64 = (128 * k + j.val) % 64; omega

/-! ## The write-backs and the whole array -/

/-- The array the region is to leave: at `(b, n, ch)` the merged heads of batch `b` at row `n`, channel `ch`. -/
def target (c : Dev nD) (Q : Fin 8 → Fin 1024 → Fin 3072 → EReal) : Buf (Elt Ideal) ((c : Thread nD τ).loc main_v6) :=
  fun j => merged Q (j 0) (j 1) (j 2)

/-- What point `t` writes back is block `t` of `target`. -/
theorem flushed_eq (m : (ℓ : Loc nD τ sig) → Buf (Elt Ideal) ℓ) (c : Dev nD) (Q : Fin 8 → Fin 1024 → Fin 3072 → EReal)
    (hin : ∀ (b : Fin 8) (n : Fin 1024) (d : Fin 3072), En3 m c main_v5 (ix3 b n d) = Q b n d) (t : Fin cfg1.N) :
    (dat1 (En3 m) c).flushed 3 t = ((cfg1.win 3).blk t).view.read (Elt Ideal) (target c Q) := by
  have ht : t.val < 64 := lt_of_lt_of_eq t.isLt N_1
  obtain ⟨e00, e01, e02, e10, e11, e12, e20, e21, e22, e30, e31, e32⟩ := idx_facts t
  show (cfg1.win 3).cut (grid1.coords t) ((dat1 (En3 m) c).after 3 t) = _
  rw [after1_3, out1_3_eq]
  funext (y : S1x1024x128.Idx)
  obtain ⟨u, i, j, rfl⟩ : ∃ (u : Fin 1) (i : Fin 1024) (j : Fin 128), y = ix3 u i j := ⟨y 0, y 1, y 2, eq_ix3 y⟩
  obtain rfl : u = 0 := Subsingleton.elim _ _
  have hj : j.val < 128 := j.isLt
  have key : ((cfg1.win 3).blk t).view.emb (ix3 (0 : Fin 1) i j)
      = (ix3 (⟨t.val / 8, by omega⟩ : Fin 8) i (⟨128 * (t.val % 8) + j.val, by omega⟩ : Fin 1024) : S8x1024x1024.Idx) := by
    funext a; apply Fin.ext
    match a with
    | ⟨0, _⟩ => show win1_3.index t (0 : Fin 3) * 1 + 1 * 0 = t.val / 8; omega
    | ⟨1, _⟩ => show win1_3.index t (1 : Fin 3) * 1024 + 1 * i.val = i.val; omega
    | ⟨2, _⟩ => show win1_3.index t (2 : Fin 3) * 128 + 1 * j.val = 128 * (t.val % 8) + j.val; omega
  show blockOut (iblk1 (En3 m) c 0 t) (iblk1 (En3 m) c 1 t) (iblk1 (En3 m) c 2 t) (ix3 (0 : Fin 1) i j)
    = target c Q (((cfg1.win 3).blk t).view.emb (ix3 (0 : Fin 1) i j))
  rw [key]
  exact blockOut_eq_merged _ _ _ Q ⟨t.val / 8, by omega⟩ (t.val % 8) (by omega)
    (fun a j' => iblk0_apply m c Q hin t a j' _ _) (fun a j' => iblk1_apply m c Q hin t a j' _ _)
    (fun a j' => iblk2_apply m c Q hin t a j' _ _) i j

/-- An index of the output array is in point `t`'s block iff each coordinate is in the block's range on its axis. -/
theorem mem_blk (t : Fin cfg1.N) (i : S8x1024x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v6).slice (win1_3.rect t)).set ↔ _
  rw [View.set_slice_whole, Rect.mem_set_unit]
  exact Iff.rfl

/-- The 64 blocks tile the array: `(b, n, ch)` lies in the block of point `8 b + ch / 128`. -/
theorem cover (i : S8x1024x1024.Idx) :
    ∃ t : Fin cfg1.N, (cfg1.win 3).flush t = true ∧ i ∈ ((cfg1.win 3).blk t).view.set := by
  have h0 : (i 0).val < 8 := (i 0).isLt
  have h1 : (i 1).val < 1024 := (i 1).isLt
  have h2 : (i 2).val < 1024 := (i 2).isLt
  obtain ⟨t, htv⟩ : ∃ t : Fin cfg1.N, t.val = 8 * (i 0).val + (i 2).val / 128 :=
    ⟨⟨8 * (i 0).val + (i 2).val / 128, lt_of_lt_of_eq (by omega : 8 * (i 0).val + (i 2).val / 128 < 64) N_1.symm⟩, rfl⟩
  obtain ⟨-, -, -, -, -, -, -, -, -, e30, e31, e32⟩ := idx_facts t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 128 ≤ (i 2).val ∧ (i 2).val < win1_3.index t (2 : Fin 3) * 128 + 128
    omega

/-- THE OUTPUT ARRAY after the region: the merged heads of the fused projection the region was entered with. -/
theorem mid_arr (m : (ℓ : Loc nD τ sig) → Buf (Elt Ideal) ℓ) (c : Dev nD) (Q : Fin 8 → Fin 1024 → Fin 3072 → EReal)
    (hin : ∀ (b : Fin 8) (n : Fin 1024) (d : Fin 3072), En3 m c main_v5 (ix3 b n d) = Q b n d) :
    ∀ (b : Fin 8) (n : Fin 1024) (ch : Fin 1024), o4 m c (ix3 b n ch) = merged Q b n ch := by
  intro b n ch
  have h : o4 m c = target c Q :=
    (dat1 (En3 m) c).arrAt_eq_of_cover 3 (target c Q) (fun t _ => flushed_eq m c Q hin t) cover
  rw [h]
  rfl

end Cert.Attn.Val

end
-- ==== Proof.Algebraic.lean ====
/-
  The two idealized programs, run from memories that agree on the five arguments, end with one and the same result
  array: the kernel's last boundary holds `Cert.Attn.out` of its arguments (the three regions' arrays read back
  through the host stretches), and the reference's composed term is `Cert.Attn.out` of its own.
-/
import proofs.«137956_j2422361555213_2_alg».proof.Defs
import proofs.«137956_j2422361555213_2_alg».proof.Proof.Gen.Pre_finite_inputs
import proofs.«137956_j2422361555213_2_alg».proof.Proof.Gen.ReferenceIdeal
import proofs.«137956_j2422361555213_2_alg».proof.Proof.Run
import proofs.«137956_j2422361555213_2_alg».proof.Proof.RefOut
import proofs.«137956_j2422361555213_2_alg».proof.Proof.ValProj0
import proofs.«137956_j2422361555213_2_alg».proof.Proof.ValProj2
import proofs.«137956_j2422361555213_2_alg».proof.Proof.ValMid

noncomputable section

namespace Cert.Attn

open Idealize.ShloMosaic Idealize.SL.Sem

theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Attn.Val.out_val m c (Cert.Attn.Val.mid_arr m c _ (Cert.Attn.Val.qkv_in m c))), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.Attn.Ref.result_eq, (hagree c).1, (hagree c).2.1, (hagree c).2.2.1,
      (hagree c).2.2.2.1, (hagree c).2.2.2.2]

end Cert.Attn

end
-- ==== Proof.lean ====
/-
  Multi-head self-attention as three kernels (the fused query/key/value projection, per batch and pair of heads the
  scaled-dot-product attention with an exact softmax, the output projection) against the einsum / softmax program.
  Over the extended reals both compute `Cert.Attn.out` (Proof/Spec.lean): a change of float format is the identity,
  a matrix product into a zero accumulator is the plain sum, the kernels' blocks tile their arrays, and the one
  arithmetical difference — the kernel scales the queries by 1/8 before the contraction over the 64 channels, the
  reference scales the scores after it — is the distributivity of a nonnegative real factor over a finite sum,
  which holds for arbitrary extended-real summands. So the precondition is never opened.
  The frames: every region is run as a segment over the thread state "every unscoped buffer at the boundary's contents"
  (Proof/Run.lean for the idealized kernel, Proof/KRun.lean the same text for the word-level one); the reference's frame
  is its run with the result dropped.
-/
import proofs.«137956_j2422361555213_2_alg».proof.Defs
import proofs.«137956_j2422361555213_2_alg».proof.Proof.Gen.Kernel
import proofs.«137956_j2422361555213_2_alg».proof.Proof.Gen.KernelIdeal
import proofs.«137956_j2422361555213_2_alg».proof.Proof.Gen.ReferenceIdeal
import proofs.«137956_j2422361555213_2_alg».proof.Proof.Gen.Pre_finite_inputs
import proofs.«137956_j2422361555213_2_alg».proof.Proof.Gen.ReferenceIdeal.Run
import proofs.«137956_j2422361555213_2_alg».proof.Proof.Gen.ReferenceIdeal.Read
import proofs.«137956_j2422361555213_2_alg».proof.Proof.KRun
import proofs.«137956_j2422361555213_2_alg».proof.Proof.Algebraic
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Attn.algebraic⟩

end Cert.Proof

end
